-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S8x512 : S_.BroadcastsInDim S8x512 (![] : Fin 0 → Fin S8x512.rank)
  reducesTo_S8x512_S_d0_1 : S8x512.ReducesTo [0, 1] S_
  bcast_S_S8x64x64x1 : S_.BroadcastsInDim S8x64x64x1 (![] : Fin 0 → Fin S8x64x64x1.rank)
  reducesTo_S8x64x64x1_S_d0_1_2_3 : S8x64x64x1.ReducesTo [0, 1, 2, 3] S_
  bcast_S_S512x512 : S_.BroadcastsInDim S512x512 (![] : Fin 0 → Fin S512x512.rank)
  reducesTo_S512x512_S_d0_1 : S512x512.ReducesTo [0, 1] S_
  bcast_S_S1x1x1x512 : S_.BroadcastsInDim S1x1x1x512 (![] : Fin 0 → Fin S1x1x1x512.rank)
  reducesTo_S1x1x1x512_S_d0_1_2_3 : S1x1x1x512.ReducesTo [0, 1, 2, 3] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1x1x1x512 .f32) (main_arg5 : FVec F S1x1x1x512 .f32) (main_arg6 : FVec F S512x1024 .f32) (main_arg7 : FVec F S1024 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x1x1x512 .f32 := Host.absf main_arg4
  let main_cst_6 : FVec F S_ .f32 := constant S_ .f32 0x7F800000#32
  let main_v20 : FVec F S1x1x1x512 .f32 := broadcastInDim S1x1x1x512 ![] bcast_S_S1x1x1x512 main_cst_6
  let main_v21 : IVec S1x1x1x512 1 := cmpf .olt main_v19 main_v20
  let main_c_7 : IVec S_ 1 := constantI S_ 1 1#1
  let main_v22 : IVec S_ 1 := (fun x v => Host.reduce IntOp.andi x v reducesTo_S1x1x1x512_S_d0_1_2_3 h_S_) main_v21 main_c_7
  let main_v23 : IVec S_ 1 := andi main_v18 main_v22
  let main_v24 : FVec F S1x1x1x512 .f32 := Host.absf main_arg5
  let main_cst_8 : FVec F S_ .f32 := constant S_ .f32 0x7F800000#32
  let main_v25 : FVec F S1x1x1x512 .f32 := broadcastInDim S1x1x1x512 ![] bcast_S_S1x1x1x512 main_cst_8
  let main_v26 : IVec S1x1x1x512 1 := cmpf .olt main_v24 main_v25
  let main_c_9 : IVec S_ 1 := constantI S_ 1 1#1
  let main_v27 : IVec S_ 1 := (fun x v => Host.reduce IntOp.andi x v reducesTo_S1x1x1x512_S_d0_1_2_3 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x64x64x512 .f32) (main_arg1 : FVec F S8x512 .f32) (main_arg2 : FVec F S8x64x64x1 .f32) (main_arg3 : FVec F S512x512 .f32) (main_arg4 : FVec F S1x1x1x512 .f32) (main_arg5 : FVec F S1x1x1x512 .f32) (main_arg6 : FVec F S512x1024 .f32) (main_arg7 : FVec F S1024 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x64x64x1 .f32 := Host.absf main_arg2
  let main_cst_2 : FVec F S_ .f32 := constant S_ .f32 0x7F800000#32
  let main_v10 : FVec F S8x64x64x1 .f32 := broadcastInDim S8x64x64x1 ![] bcast_S_S8x64x64x1 main_cst_2
  let main_v11 : IVec S8x64x64x1 1 := cmpf .olt main_v9 main_v10
  let main_c_3 : IVec S_ 1 := constantI S_ 1 1#1
  let main_v12 : IVec S_ 1 := (fun x v => Host.reduce IntOp.andi x v reducesTo_S8x64x64x1_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_v13 main_v16
-- ==== Kernel.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S8x64x64 : Shape := ⟨3, ![8, 64, 64]⟩
abbrev S1x512 : Shape := ⟨2, ![1, 512]⟩
abbrev S8x1024 : Shape := ⟨2, ![8, 1024]⟩
abbrev S1x1024 : Shape := ⟨2, ![1, 1024]⟩
abbrev S8x1x512 : Shape := ⟨3, ![8, 1, 512]⟩
abbrev S1x64x64x512 : Shape := ⟨4, ![1, 64, 64, 512]⟩
abbrev S1x64x64 : Shape := ⟨3, ![1, 64, 64]⟩
abbrev S512x256 : Shape := ⟨2, ![512, 256]⟩
abbrev S1x256 : Shape := ⟨2, ![1, 256]⟩
abbrev S1x1x256 : Shape := ⟨3, ![1, 1, 256]⟩
abbrev S1x64x64x256 : Shape := ⟨4, ![1, 64, 64, 256]⟩
abbrev S64x64x512 : Shape := ⟨3, ![64, 64, 512]⟩
abbrev S4096x512 : Shape := ⟨2, ![4096, 512]⟩
abbrev S4096x256 : Shape := ⟨2, ![4096, 256]⟩
abbrev S64x64x256 : Shape := ⟨3, ![64, 64, 256]⟩
abbrev S64x64 : Shape := ⟨2, ![64, 64]⟩
abbrev S64x64x1 : Shape := ⟨3, ![64, 64, 1]⟩
abbrev S64x256 : Shape := ⟨2, ![64, 256]⟩
abbrev S256 : Shape := ⟨1, ![256]⟩

abbrev nBuf : Space → Nat
  | .hbm => 20
  | .vmem => 16
  | .smem => 0
  | _ => 0

abbrev bufTy : (tb : Table) → Fin (tcTables nBuf tb) → BufTy
  | .hbm, ⟨0, _⟩ => ⟨S8x64x64x512, .f32⟩
  | .hbm, ⟨1, _⟩ => ⟨S8x512, .f32⟩
  | .hbm, ⟨2, _⟩ => ⟨S8x64x64x1, .f32⟩
  | .hbm, ⟨3, _⟩ => ⟨S512x512, .f32⟩
  | .hbm, ⟨4, _⟩ => ⟨S1x1x1x512, .f32⟩
  | .hbm, ⟨5, _⟩ => ⟨S1x1x1x512, .f32⟩
  | .hbm, ⟨6, _⟩ => ⟨S512x1024, .f32⟩
  | .hbm, ⟨7, _⟩ => ⟨S1024, .f32⟩
  | .hbm, ⟨8, _⟩ => ⟨S8x64x64, .f32⟩
  | .hbm, ⟨9, _⟩ => ⟨S1x512, .f32⟩
  | .hbm, ⟨10, _⟩ => ⟨S1x512, .f32⟩
  | .hbm, ⟨11, _⟩ => ⟨S8x1024, .f32⟩
  | .hbm, ⟨12, _⟩ => ⟨S1x1024, .f32⟩
  | .hbm, ⟨13, _⟩ => ⟨S8x1024, .f32⟩
  | .hbm, ⟨14, _⟩ => ⟨S8x1024, .f32⟩
  | .hbm, ⟨15, _⟩ => ⟨S8x512, .f32⟩
  | .hbm, ⟨16, _⟩ => ⟨S8x1x512, .f32⟩
  | .hbm, ⟨17, _⟩ => ⟨S8x512, .f32⟩
  | .hbm, ⟨18, _⟩ => ⟨S8x1x512, .f32⟩
  | .hbm, ⟨19, _⟩ => ⟨S8x64x64x512, .f32⟩
  | .local _ .vmem, ⟨0, _⟩ => ⟨S1x64x64x512, .f32⟩
  | .local _ .vmem, ⟨1, _⟩ => ⟨S1x64x64x512, .f32⟩
  | .local _ .vmem, ⟨2, _⟩ => ⟨S1x64x64, .f32⟩
  | .local _ .vmem, ⟨3, _⟩ => ⟨S1x64x64, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x64x64x256, .f32⟩
  | .local _ .vmem, ⟨15, _⟩ => ⟨S1x64x64x256, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x64x64x1_S8x64x64 : S8x64x64x1.ShapeCasts S8x64x64
  shapeCasts_S1x1x1x512_S1x512 : S1x1x1x512.ShapeCasts S1x512
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  slices_S8x1024_S8x512_0_0 : S8x1024.Slices ![0, 0] S8x512
  shapeCasts_S8x512_S8x1x512 : S8x512.ShapeCasts S8x1x512
  slices_S8x1024_S8x512_0_512 : S8x1024.Slices ![0, 512] S8x512
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S64x64x512_S4096x512 : S64x64x512.ShapeCasts S4096x512
  shapeCasts_S4096x256_S64x64x256 : S4096x256.ShapeCasts S64x64x256
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S64x64x1 : S64x64.ShapeCasts S64x64x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S64x64x256 : S1x1x256.Broadcasts S64x64x256
  broadcasts_S64x64x1_S64x64x256 : S64x64x1.Broadcasts S64x64x256
  reduces_S64x64x256_S64x256 : S64x64x256.Reduces [0] S64x256
  reduces_S64x256_S256 : S64x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S256 : S1x256.ShapeCasts S256
  shapeCasts_S256_S1x1x256 : S256.ShapeCasts S1x1x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  dot_S8x512_S512x1024_S8x1024_1_0_0_1_n_n_wf : DotDims.WF S8x512 S512x1024 S8x1024 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S8x64x64x512.size a
  hwx0_0 : ∀ i : grid0.Coords, EltTy.bits .f32 = 32 ∨ (Rect.block (s := S8x64x64x512) S1x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x512.size a
  hwx0_2 : ∀ i : grid0.Coords, EltTy.bits .f32 = 32 ∨ (Rect.block (s := S512x512) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x512.size a
  hwx0_3 : ∀ i : grid0.Coords, EltTy.bits .f32 = 32 ∨ (Rect.block (s := S1x512) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x512.size a
  hwx0_4 : ∀ i : grid0.Coords, EltTy.bits .f32 = 32 ∨ (Rect.block (s := S1x512) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S8x1x512.size a
  hwx0_5 : ∀ i : grid0.Coords, EltTy.bits .f32 = 32 ∨ (Rect.block (s := S8x1x512) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S8x1x512.size a
  hwx0_6 : ∀ i : grid0.Coords, EltTy.bits .f32 = 32 ∨ (Rect.block (s := S8x1x512) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x64x256.size a ≤ S8x64x64x512.size a
  hwx0_7 : ∀ i : grid0.Coords, EltTy.bits .f32 = 32 ∨ (Rect.block (s := S8x64x64x512) S1x64x64x256.size (cc0_transform_7 i) (hinb0_7 i)).WholeWords (EltTy.packing .f32)

variable [Facts₀]

def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x64x64x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S_ : Shape := ⟨0, ![]⟩
abbrev S8x1x1x512 : Shape := ⟨4, ![8, 1, 1, 512]⟩
abbrev S8x1024 : Shape := ⟨2, ![8, 1024]⟩
abbrev S1x1024 : Shape := ⟨2, ![1, 1024]⟩
abbrev S8x2x1x1x512 : Shape := ⟨5, ![8, 2, 1, 1, 512]⟩
abbrev S8x1x1x1x512 : Shape := ⟨5, ![8, 1, 1, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S8x512, .f32⟩
  | .hbm, ⟨2, _⟩ => ⟨S8x64x64x1, .f32⟩
  | .hbm, ⟨3, _⟩ => ⟨S512x512, .f32⟩
  | .hbm, ⟨4, _⟩ => ⟨S1x1x1x512, .f32⟩
  | .hbm, ⟨5, _⟩ => ⟨S1x1x1x512, .f32⟩
  | .hbm, ⟨6, _⟩ => ⟨S512x1024, .f32⟩
  | .hbm, ⟨7, _⟩ => ⟨S1024, .f32⟩
  | .hbm, ⟨8, _⟩ => ⟨S8x64x64x512, .f32⟩
  | .hbm, ⟨9, _⟩ => ⟨S8x64x64x512, .f32⟩
  | .hbm, ⟨10, _⟩ => ⟨S8x64x64x512, .f32⟩
  | .hbm, ⟨11, _⟩ => ⟨S8x64x64x512, .f32⟩
  | .hbm, ⟨12, _⟩ => ⟨S8x64x64x512, .f32⟩
  | .hbm, ⟨13, _⟩ => ⟨S8x64x64x512, .f32⟩
  | .hbm, ⟨14, _⟩ => ⟨S8x64x64x512, .f32⟩
  | .hbm, ⟨15, _⟩ => ⟨S_, .f32⟩
  | .hbm, ⟨16, _⟩ => ⟨S_, .f32⟩
  | .hbm, ⟨17, _⟩ => ⟨S8x64x64x512, .f32⟩
  | .hbm, ⟨18, _⟩ => ⟨S8x64x64x512, .i1⟩
  | .hbm, ⟨19, _⟩ => ⟨S_, .f32⟩
  | .hbm, ⟨20, _⟩ => ⟨S8x64x64x512, .f32⟩
  | .hbm, ⟨21, _⟩ => ⟨S8x64x64x512, .f32⟩
  | .hbm, ⟨22, _⟩ => ⟨S8x64x64x512, .f32⟩
  | .hbm, ⟨23, _⟩ => ⟨S_, .f32⟩
  | .hbm, ⟨24, _⟩ => ⟨S8x512, .f32⟩
  | .hbm, ⟨25, _⟩ => ⟨S8x1x1x512, .f32⟩
  | .hbm, ⟨26, _⟩ => ⟨S_, .f32⟩
  | .hbm, ⟨27, _⟩ => ⟨S8x1x1x512, .f32⟩
  | .hbm, ⟨28, _⟩ => ⟨S8x1x1x512, .f32⟩
  | .hbm, ⟨29, _⟩ => ⟨S8x64x64x512, .f32⟩
  | .hbm, ⟨30, _⟩ => ⟨S8x64x64x512, .f32⟩
  | .hbm, ⟨31, _⟩ => ⟨S8x64x64x512, .f32⟩
  | .hbm, ⟨32, _⟩ => ⟨S_, .f32⟩
  | .hbm, ⟨33, _⟩ => ⟨S8x512, .f32⟩
  | .hbm, ⟨34, _⟩ => ⟨S8x1x1x512, .f32⟩
  | .hbm, ⟨35, _⟩ => ⟨S_, .f32⟩
  | .hbm, ⟨36, _⟩ => ⟨S8x1x1x512, .f32⟩
  | .hbm, ⟨37, _⟩ => ⟨S8x1x1x512, .f32⟩
  | .hbm, ⟨38, _⟩ => ⟨S8x64x64x512, .f32⟩
  | .hbm, ⟨39, _⟩ => ⟨S8x64x64x512, .f32⟩
  | .hbm, ⟨40, _⟩ => ⟨S_, .f32⟩
  | .hbm, ⟨41, _⟩ => ⟨S8x1x1x512, .f32⟩
  | .hbm, ⟨42, _⟩ => ⟨S8x1x1x512, .f32⟩
  | .hbm, ⟨43, _⟩ => ⟨S8x1x1x512, .f32⟩
  | .hbm, ⟨44, _⟩ => ⟨S8x64x64x512, .f32⟩
  | .hbm, ⟨45, _⟩ => ⟨S8x64x64x512, .f32⟩
  | .hbm, ⟨46, _⟩ => ⟨S8x1024, .f32⟩
  | .hbm, ⟨47, _⟩ => ⟨S1x1024, .f32⟩
  | .hbm, ⟨48, _⟩ => ⟨S8x1024, .f32⟩
  | .hbm, ⟨49, _⟩ => ⟨S8x1024, .f32⟩
  | .hbm, ⟨50, _⟩ => ⟨S8x2x1x1x512, .f32⟩
  | .hbm, ⟨51, _⟩ => ⟨S8x1x1x1x512, .f32⟩
  | .hbm, ⟨52, _⟩ => ⟨S8x1x1x512, .f32⟩
  | .hbm, ⟨53, _⟩ => ⟨S8x1x1x1x512, .f32⟩
  | .hbm, ⟨54, _⟩ => ⟨S8x1x1x512, .f32⟩
  | .hbm, ⟨55, _⟩ => ⟨S_, .f32⟩
  | .hbm, ⟨56, _⟩ => ⟨S8x1x1x512, .f32⟩
  | .hbm, ⟨57, _⟩ => ⟨S8x1x1x512, .f32⟩
  | .hbm, ⟨58, _⟩ => ⟨S8x64x64x512, .f32⟩
  | .hbm, ⟨59, _⟩ => ⟨S8x64x64x512, .f32⟩
  | .hbm, ⟨60, _⟩ => ⟨S8x64x64x512, .f32⟩
  | .hbm, ⟨61, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S1x1x1x512_S8x64x64x512_0_1_2_3 : S1x1x1x512.BroadcastsInDim S8x64x64x512 (![0, 1, 2, 3] : Fin 4 → Fin S8x64x64x512.rank)
  bcast_S8x64x64x1_S8x64x64x512_0_1_2_3 : S8x64x64x1.BroadcastsInDim S8x64x64x512 (![0, 1, 2, 3] : Fin 4 → Fin S8x64x64x512.rank)
  bcast_S_S8x64x64x512 : S_.BroadcastsInDim S8x64x64x512 (![] : Fin 0 → Fin S8x64x64x512.rank)
  reducesTo_S8x64x64x512_S8x512_d1_2 : S8x64x64x512.ReducesTo [1, 2] S8x512
  h_S_ : 0 < S_.numel
  bcast_S8x512_S8x1x1x512_0_3 : S8x512.BroadcastsInDim S8x1x1x512 (![0, 3] : Fin 2 → Fin S8x1x1x512.rank)
  bcast_S_S8x1x1x512 : S_.BroadcastsInDim S8x1x1x512 (![] : Fin 0 → Fin S8x1x1x512.rank)
  bcast_S8x1x1x512_S8x64x64x512_0_1_2_3 : S8x1x1x512.BroadcastsInDim S8x64x64x512 (![0, 1, 2, 3] : Fin 4 → Fin S8x64x64x512.rank)
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  shapeCasts_S8x1024_S8x2x1x1x512 : S8x1024.ShapeCasts S8x2x1x1x512
  slices_S8x2x1x1x512_S8x1x1x1x512_0_0_0_0_0 : S8x2x1x1x512.Slices ![0, 0, 0, 0, 0] S8x1x1x1x512
  shapeCasts_S8x1x1x1x512_S8x1x1x512 : S8x1x1x1x512.ShapeCasts S8x1x1x512
  slices_S8x2x1x1x512_S8x1x1x1x512_0_1_0_0_0 : S8x2x1x1x512.Slices ![0, 1, 0, 0, 0] S8x1x1x1x512
  dot_S8x64x64x512_S512x512_S8x64x64x512_3_0_012_1_n_n_wf : DotDims.WF S8x64x64x512 S512x512 S8x64x64x512 [3] [0] [0, 1, 2] [1] [] []
  dot_S8x512_S512x1024_S8x1024_1_0_0_1_n_n_wf : DotDims.WF S8x512 S512x1024 S8x1024 [1] [0] [0] [1] [] []

variable [Facts₀]

def dot_S8x64x64x512_S512x512_S8x64x64x512_3_0_012_1_n_n : DotDims S8x64x64x512 S512x512 S8x64x64x512 where
  lhsContracting := [3]
  rhsContracting := [0]
  lhsNonContracting := [0, 1, 2]
  rhsNonContracting := [1]
  lhsBatch := []
  rhsBatch := []
  wf := dot_S8x64x64x512_S512x512_S8x64x64x512_3_0_012_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf

class Facts : Prop extends Facts₀ where

variable [Facts]
-- ==== Proof.Spec.lean ====
/-
  The two programs' results as ONE pair of functions of the eight argument arrays, coordinate by coordinate, on the
  extended reals.

  Both programs first form the same activation
      Y[b,h,w,f] = lrelu( Σ_c x[b,h,w,c]·W[c,f] + nw[f]·noise[b,h,w] + bias[f] ),   lrelu v = v if v ≥ 0, else 0.2·v,
  and the same style vector  gb[b,j] = Σ_k d[b,k]·A[k,j] + a[j]  (γ = gb[b,f], β = gb[b,512+f]).

  The kernel normalises a (b,f) plane of 64×64 entries by the folded form
      mu = S1·2⁻¹²,  var = max(S2·2⁻¹² − mu·mu, 0),  s = rsqrt(var + ε)·(1 + γ),   out = Y·s + (β − mu·s),
  with S1 = ΣΣ Y and S2 = ΣΣ Y·Y, and the reference by the textbook form
      mu = S1 / 4096,  var = ΣΣ (Y − mu)² / 4096,   out = (Y − mu)·rsqrt(var + ε)·(1 + γ) + β.
  Over the reals the two variances are one number (E[(Y−mu)²] = E[Y²] − mu², which is ≥ 0, so the clamp is inert) and the
  two affine forms agree by distributivity; both steps need every entry finite.  The float words are kept as
  words: the same word on both sides is never evaluated, 2⁻¹² and 4096 are exact powers of two.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words the programs print, at the ideal values. -/
abbrev zero : EReal := Ideal.ofBits .f32 0x00000000#32
abbrev slope : EReal := Ideal.ofBits .f32 0x3E4CCCCD#32
abbrev invN : EReal := Ideal.ofBits .f32 0x39800000#32
abbrev cntN : EReal := Ideal.ofBits .f32 0x45800000#32
abbrev eps : EReal := Ideal.ofBits .f32 0x322BCC77#32
abbrev one : EReal := Ideal.ofBits .f32 0x3F800000#32

/-- The argument arrays' index types. -/
abbrev SX : Shape := ⟨4, ![8, 64, 64, 512]⟩
abbrev SD : Shape := ⟨2, ![8, 512]⟩
abbrev SN : Shape := ⟨4, ![8, 64, 64, 1]⟩
abbrev SW : Shape := ⟨2, ![512, 512]⟩
abbrev SR : Shape := ⟨4, ![1, 1, 1, 512]⟩
abbrev SA : Shape := ⟨2, ![512, 1024]⟩
abbrev SB : Shape := ⟨1, ![1024]⟩

/-- The leaky rectifier as both programs spell it: the element where it is at least zero, else 0.2 times it. -/
def lrelu (v : EReal) : EReal := Scalar.select (Ideal.cmp .oge v zero) v (slope * v)

/-- The activation both programs normalise. -/
def act (x : SX.Idx → EReal) (cw : SW.Idx → EReal) (nz : SN.Idx → EReal) (nw bs : SR.Idx → EReal)
    (b : Fin 8) (h w : Fin 64) (f : Fin 512) : EReal :=
  lrelu ((∑ c : Fin 512, x (ix4 b h w c) * cw (ix2 c f)) + nw (ix4 0 0 0 f) * nz (ix4 b h w 0) + bs (ix4 0 0 0 f))

/-- The style vector: the latent row times the dense weights plus the dense bias. -/
def gb (dl : SD.Idx → EReal) (dw : SA.Idx → EReal) (db : SB.Idx → EReal) (b : Fin 8) (j : Fin 1024) : EReal :=
  (∑ k : Fin 512, dl (ix2 b k) * dw (ix2 k j)) + db (ix1 j)

/-- A plane's sum and its sum of squares. -/
def S1 (Y : Fin 64 → Fin 64 → EReal) : EReal := ∑ h : Fin 64, ∑ w : Fin 64, Y h w
def S2 (Y : Fin 64 → Fin 64 → EReal) : EReal := ∑ h : Fin 64, ∑ w : Fin 64, Y h w * Y h w

/-- The kernel's mean, its reciprocal deviation and its result on a plane. -/
def muK (Y : Fin 64 → Fin 64 → EReal) : EReal := S1 Y * invN
def rK (Y : Fin 64 → Fin 64 → EReal) : EReal := Ideal.rsqrt (max (S2 Y * invN - muK Y * muK Y) zero + eps)
def kerOut (Y : Fin 64 → Fin 64 → EReal) (γ β : EReal) (h w : Fin 64) : EReal :=
  Y h w * (rK Y * (one + γ)) + (β - muK Y * (rK Y * (one + γ)))

/-- The reference's mean, its reciprocal deviation and its result on a plane. -/
def muR (Y : Fin 64 → Fin 64 → EReal) : EReal := Ideal.div (S1 Y) cntN
def rR (Y : Fin 64 → Fin 64 → EReal) : EReal :=
  Ideal.rsqrt (Ideal.div (∑ h : Fin 64, ∑ w : Fin 64, (Y h w - muR Y) * (Y h w - muR Y)) cntN + eps)
def refOut (Y : Fin 64 → Fin 64 → EReal) (γ β : EReal) (h w : Fin 64) : EReal :=
  (Y h w - muR Y) * rR Y * (one + γ) + β

/-- The two halves of a style row. -/
abbrev lo (f : Fin 512) : Fin 1024 := ⟨f.val, by omega⟩
abbrev hi (f : Fin 512) : Fin 1024 := ⟨512 + f.val, by omega⟩

/-- The kernel's result at (b,h,w,f) as a function of the argument arrays. -/
def kerC (x : SX.Idx → EReal) (dl : SD.Idx → EReal) (nz : SN.Idx → EReal) (cw : SW.Idx → EReal) (nw bs : SR.Idx → EReal)
    (dw : SA.Idx → EReal) (db : SB.Idx → EReal) (b : Fin 8) (h w : Fin 64) (f : Fin 512) : EReal :=
  kerOut (fun h' w' => act x cw nz nw bs b h' w' f) (gb dl dw db b (lo f)) (gb dl dw db b (hi f)) h w

/-- The reference's result at (b,h,w,f) as a function of the argument arrays. -/
def refC (x : SX.Idx → EReal) (dl : SD.Idx → EReal) (nz : SN.Idx → EReal) (cw : SW.Idx → EReal) (nw bs : SR.Idx → EReal)
    (dw : SA.Idx → EReal) (db : SB.Idx → EReal) (b : Fin 8) (h w : Fin 64) (f : Fin 512) : EReal :=
  refOut (fun h' w' => act x cw nz nw bs b h' w' f) (gb dl dw db b (lo f)) (gb dl dw db b (hi f)) h w

/-- "Every entry is a real number." -/
def Real {ι : Type} (a : ι → EReal) : Prop := ∀ i, ∃ r : ℝ, a i = (r : EReal)

end Cert.Spec

end
-- ==== Proof.Words.lean ====
/-
  The values of the six float words of the specification, as extended reals.

  A 32-bit pattern with sign 0, exponent field E (neither 0 nor 255) and fraction field T denotes the real
  (2²³ + T)·2^(E−150).  So 0x39800000 (E = 115, T = 0) is 2⁻¹² = 1/4096, 0x45800000 (E = 139, T = 0) is 2¹² = 4096,
  0x3F800000 (E = 127, T = 0) is 1, the zero pattern is 0, and the slope word (E = 124) and the epsilon word (E = 100)
  are positive reals; of epsilon only its positivity is used, of the slope only that it is a real.
-/
import proofs.«126082_j29540785062600_2_alg».proof.Proof.Spec

noncomputable section

namespace Cert.Words

open Idealize.ShloMosaic Cert.Spec

theorem zero_eq : zero = 0 := Ideal.ofBits_zero_f32

theorem invN_eq : invN = ((1 / 4096 : ℝ) : EReal) := by
  simp [Ideal.ofBits, Ideal.ieee, -EReal.coe_mul]; norm_num

theorem cntN_eq : cntN = ((4096 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem slope_eq : slope = ((13421773 / 2 ^ 26 : ℝ) : EReal) := by
  simp [Ideal.ofBits, Ideal.ieee, -EReal.coe_mul]; norm_num

theorem eps_eq : eps = ((11258999 / 2 ^ 50 : ℝ) : EReal) := by
  simp [Ideal.ofBits, Ideal.ieee, -EReal.coe_mul]; norm_num

/-- The slope word is a real. -/
theorem slope_real : ∃ r : ℝ, slope = (r : EReal) := ⟨_, slope_eq⟩

/-- The epsilon word is a positive real. -/
theorem eps_pos : ∃ r : ℝ, 0 < r ∧ eps = (r : EReal) := ⟨_, by norm_num, eps_eq⟩

end Cert.Words

end
-- ==== Proof.RealLaw.lean ====
/-
  The real-number law behind the two normalisations, over an abstract finite index type.

  For a finite family y and a factor c with (number of indices)·c = 1, put mu = (Σ y)·c.  Then
      (Σ (y − mu)²)·c = (Σ y²)·c − mu·mu,
  the left side is a sum of squares times a non-negative factor, hence ≥ 0, and therefore
      max ((Σ y²)·c − mu·mu) 0 = (Σ (y − mu)²)·c :
  the folded variance with its clamp is the textbook variance.  Also here: the coercion of a finite real sum
  into the extended reals is the sum of the coercions.
-/
import Mathlib.Data.EReal.Basic
import Mathlib.Algebra.BigOperators.Ring.Finset
import Mathlib.Algebra.Order.BigOperators.Ring.Finset
import Mathlib.Tactic.Ring
import Mathlib.Tactic.LinearCombination
import Mathlib.Tactic.NormNum
import Mathlib.Data.Fintype.BigOperators

namespace Cert.RealLaw

open scoped BigOperators

/-- The coercion ℝ → EReal commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Expanding the squared deviations from any centre m. -/
theorem sum_sq_dev {ι : Type} [Fintype ι] (y : ι → ℝ) (m : ℝ) :
    ∑ i, (y i - m) * (y i - m)
      = (∑ i, y i * y i) - 2 * m * (∑ i, y i) + (Fintype.card ι : ℝ) * (m * m) := by
  have e : ∀ i, (y i - m) * (y i - m) = y i * y i - 2 * m * y i + m * m := fun i => by ring
  simp only [e, Finset.sum_add_distrib, Finset.sum_sub_distrib, ← Finset.mul_sum, Finset.sum_const,
    Finset.card_univ, nsmul_eq_mul]
  ring

/-- E[(y − mu)²] = E[y²] − mu², with the mean taken by the reciprocal factor c. -/
theorem var_fold {ι : Type} [Fintype ι] (y : ι → ℝ) (c : ℝ) (hc : (Fintype.card ι : ℝ) * c = 1) :
    (∑ i, (y i - (∑ j, y j) * c) * (y i - (∑ j, y j) * c)) * c
      = (∑ i, y i * y i) * c - ((∑ j, y j) * c) * ((∑ j, y j) * c) := by
  rw [sum_sq_dev]
  generalize (∑ i, y i) = s1
  generalize (∑ i, y i * y i) = s2
  linear_combination (s1 * c) * (s1 * c) * hc

/-- The textbook variance is non-negative. -/
theorem var_nonneg {ι : Type} [Fintype ι] (y : ι → ℝ) (m c : ℝ) (hc : 0 ≤ c) :
    0 ≤ (∑ i, (y i - m) * (y i - m)) * c :=
  mul_nonneg (Finset.sum_nonneg fun i _ => mul_self_nonneg (y i - m)) hc

/-- The clamp at zero is inert: the folded variance with its clamp is the textbook variance. -/
theorem max_fold {ι : Type} [Fintype ι] (y : ι → ℝ) (c : ℝ) (hc : (Fintype.card ι : ℝ) * c = 1) (hc0 : 0 ≤ c) :
    max ((∑ i, y i * y i) * c - ((∑ j, y j) * c) * ((∑ j, y j) * c)) 0
      = (∑ i, (y i - (∑ j, y j) * c) * (y i - (∑ j, y j) * c)) * c := by
  rw [← var_fold y c hc]
  exact max_eq_left (var_nonneg y _ c hc0)

/-- The same on a 64×64 plane written as an iterated sum, with c = 1/4096. -/
theorem max_fold_plane (y : Fin 64 → Fin 64 → ℝ) :
    max ((∑ h, ∑ w, y h w * y h w) * (1 / 4096)
          - ((∑ h, ∑ w, y h w) * (1 / 4096)) * ((∑ h, ∑ w, y h w) * (1 / 4096))) 0
      = (∑ h, ∑ w, (y h w - (∑ h', ∑ w', y h' w') * (1 / 4096)) * (y h w - (∑ h', ∑ w', y h' w') * (1 / 4096)))
          * (1 / 4096) := by
  have hc : (Fintype.card (Fin 64 × Fin 64) : ℝ) * (1 / 4096) = 1 := by
    rw [Fintype.card_prod, Fintype.card_fin]; norm_num
  have h := max_fold (ι := Fin 64 × Fin 64) (fun p => y p.1 p.2) (1 / 4096) hc (by norm_num)
  simpa only [Fintype.sum_prod_type] using h

/-- The coercion commutes with the iterated sum over a plane. -/
theorem coe_sum2 (f : Fin 64 → Fin 64 → ℝ) :
    (∑ h, ∑ w, ((f h w : ℝ) : EReal)) = ((∑ h, ∑ w, f h w : ℝ) : EReal) := by
  rw [coe_sum]
  exact Finset.sum_congr rfl fun h _ => (coe_sum _ _).symm

/-- The coercion commutes with the maximum. -/
theorem coe_max (a b : ℝ) : ((max a b : ℝ) : EReal) = max (a : EReal) (b : EReal) :=
  EReal.coe_strictMono.monotone.map_max

end Cert.RealLaw
-- ==== Proof.Plane.lean ====
/-
  One 64×64 plane: the kernel's folded normalisation and the reference's textbook normalisation are one function
  whenever every entry, the scale and the shift are real numbers.

  Write the entries as reals y, s1 = ΣΣ y, s2 = ΣΣ y², mu = s1/4096.  Both means are (the coercion of) mu: the kernel
  multiplies by the word 2⁻¹², the reference divides by the word 4096, and the quotient of an extended real by a
  non-zero real is the product with its reciprocal.  The kernel's clamped variance max(s2/4096 − mu², 0) is the
  reference's ΣΣ(y − mu)²/4096 (the real law), so both reciprocal deviations are the reciprocal square root of ONE
  positive real v + ε, a real number ρ.  What remains is distributivity in ℝ:
      y·(ρ(1+γ)) + (β − mu·(ρ(1+γ))) = (y − mu)·ρ·(1+γ) + β.
-/
import proofs.«126082_j29540785062600_2_alg».proof.Proof.Spec
import proofs.«126082_j29540785062600_2_alg».proof.Proof.Words
import proofs.«126082_j29540785062600_2_alg».proof.Proof.RealLaw

noncomputable section

namespace Cert.Plane

open Idealize.ShloMosaic Cert.Spec Cert.Words Cert.RealLaw

/-- The reciprocal square root of a positive real is a real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

section
variable (y : Fin 64 → Fin 64 → ℝ)

/-- The plane of coerced entries. -/
abbrev Yc : Fin 64 → Fin 64 → EReal := fun h w => (y h w : EReal)

theorem S1_coe : S1 (Yc y) = ((∑ h, ∑ w, y h w : ℝ) : EReal) := coe_sum2 y

theorem S2_coe : S2 (Yc y) = ((∑ h, ∑ w, y h w * y h w : ℝ) : EReal) := by
  unfold S2
  simp only [← EReal.coe_mul]
  exact coe_sum2 _

/-- The common mean. -/
abbrev mu : ℝ := (∑ h, ∑ w, y h w) * (1 / 4096)

theorem muK_coe : muK (Yc y) = (mu y : EReal) := by
  unfold muK
  rw [S1_coe, invN_eq, ← EReal.coe_mul]

theorem muR_coe : muR (Yc y) = (mu y : EReal) := by
  unfold muR
  rw [S1_coe, cntN_eq, Ideal.div_coe (by norm_num : (4096 : ℝ) ≠ 0), ← EReal.coe_mul]

/-- The textbook variance. -/
abbrev var : ℝ := (∑ h, ∑ w, (y h w - mu y) * (y h w - mu y)) * (1 / 4096)

theorem var_nonneg : 0 ≤ var y :=
  mul_nonneg (Finset.sum_nonneg fun h _ => Finset.sum_nonneg fun w _ => mul_self_nonneg _) (by norm_num)

/-- The kernel's clamped folded variance is the coercion of the textbook variance. -/
theorem varK_coe : max (S2 (Yc y) * invN - muK (Yc y) * muK (Yc y)) zero = (var y : EReal) := by
  rw [S2_coe, muK_coe, invN_eq, zero_eq, ← EReal.coe_mul, ← EReal.coe_mul, ← EReal.coe_sub, ← EReal.coe_zero,
    ← coe_max]
  exact congrArg _ (max_fold_plane y)

/-- The reference's variance is the coercion of the textbook variance. -/
theorem varR_coe :
    Ideal.div (∑ h : Fin 64, ∑ w : Fin 64, (Yc y h w - muR (Yc y)) * (Yc y h w - muR (Yc y))) cntN = (var y : EReal) := by
  rw [muR_coe, cntN_eq, Ideal.div_coe (by norm_num : (4096 : ℝ) ≠ 0)]
  simp only [← EReal.coe_sub, ← EReal.coe_mul]
  rw [coe_sum2, ← EReal.coe_mul]

end

/-- The kernel's and the reference's results on a plane of reals with a real scale and shift. -/
theorem out_eq (y : Fin 64 → Fin 64 → ℝ) (g b : ℝ) (h w : Fin 64) :
    kerOut (Yc y) (g : EReal) (b : EReal) h w = refOut (Yc y) (g : EReal) (b : EReal) h w := by
  obtain ⟨e, he, hee⟩ := eps_pos
  have hp : 0 < var y + e := add_pos_of_nonneg_of_pos (var_nonneg y) he
  have hK : rK (Yc y) = (((Real.sqrt (var y + e))⁻¹ : ℝ) : EReal) := by
    unfold rK; rw [varK_coe, hee, ← EReal.coe_add, rsqrt_pos hp]
  have hR : rR (Yc y) = (((Real.sqrt (var y + e))⁻¹ : ℝ) : EReal) := by
    unfold rR; rw [varR_coe, hee, ← EReal.coe_add, rsqrt_pos hp]
  unfold kerOut refOut
  rw [hK, hR, muK_coe, muR_coe, one_eq]
  simp only [← EReal.coe_add, ← EReal.coe_mul, ← EReal.coe_sub]
  exact congrArg _ (by ring)

end Cert.Plane

end
-- ==== Proof.Algebra.lean ====
/-
  The two programs' results are equal, coordinate by coordinate, whenever every entry of the eight argument arrays
  is a real number.

  Real numbers are closed under the extended reals' sum, product and finite sums (the coercion commutes with each), and
  the leaky rectifier returns one of v and slope·v, so the activation Y[b,h,w,f] and the style vector gb[b,j] are real
  numbers.  On each (b,f) plane the kernel's folded normalisation of Y with scale gb[b,f] and shift gb[b,512+f] is then
  the reference's textbook normalisation (the plane law).
-/
import proofs.«126082_j29540785062600_2_alg».proof.Proof.Spec
import proofs.«126082_j29540785062600_2_alg».proof.Proof.Words
import proofs.«126082_j29540785062600_2_alg».proof.Proof.RealLaw
import proofs.«126082_j29540785062600_2_alg».proof.Proof.Plane

noncomputable section

namespace Cert.Reals

open Idealize.ShloMosaic Idealize.ShloMosaic.ValueIdx Cert.Spec

/-- A sum of two reals is a real. -/
theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- A product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- A finite sum of reals is a real. -/
theorem real_sum {ι : Type} [Fintype ι] (f : ι → EReal) (hf : ∀ i, ∃ r : ℝ, f i = (r : EReal)) :
    ∃ r : ℝ, ∑ i, f i = (r : EReal) := by
  choose g hg using hf
  exact ⟨∑ i, g i, by rw [Cert.RealLaw.coe_sum]; exact Finset.sum_congr rfl fun i _ => hg i⟩

/-- The leaky rectifier of a real is a real: it is the element or the slope times the element. -/
theorem lrelu_real {v : EReal} (hv : ∃ r : ℝ, v = (r : EReal)) : ∃ r : ℝ, lrelu v = (r : EReal) := by
  unfold lrelu
  rcases BitVec.eq_zero_or_eq_one (Ideal.cmp .oge v zero) with h | h
  · rw [h, select_zero]; exact real_mul Cert.Words.slope_real hv
  · rw [h, select_one]; exact hv

end Cert.Reals

namespace Cert.Spec

open Idealize.ShloMosaic Idealize.ShloMosaic.ValueIdx Cert.Reals

theorem act_real (x : SX.Idx → EReal) (cw : SW.Idx → EReal) (nz : SN.Idx → EReal) (nw bs : SR.Idx → EReal)
    (hx : Real x) (hcw : Real cw) (hnz : Real nz) (hnw : Real nw) (hbs : Real bs)
    (b : Fin 8) (h w : Fin 64) (f : Fin 512) : ∃ r : ℝ, act x cw nz nw bs b h w f = (r : EReal) := by
  unfold act
  exact lrelu_real (real_add (real_add (real_sum _ fun c => real_mul (hx _) (hcw _)) (real_mul (hnw _) (hnz _))) (hbs _))

theorem gb_real (dl : SD.Idx → EReal) (dw : SA.Idx → EReal) (db : SB.Idx → EReal)
    (hdl : Real dl) (hdw : Real dw) (hdb : Real db) (b : Fin 8) (j : Fin 1024) :
    ∃ r : ℝ, gb dl dw db b j = (r : EReal) := by
  unfold gb
  exact real_add (real_sum _ fun k => real_mul (hdl _) (hdw _)) (hdb _)

theorem kerOut_eq_refOut (Y : Fin 64 → Fin 64 → EReal) (γ β : EReal)
    (hY : ∀ h w, ∃ r : ℝ, Y h w = (r : EReal)) (hγ : ∃ r : ℝ, γ = (r : EReal)) (hβ : ∃ r : ℝ, β = (r : EReal))
    (h w : Fin 64) : kerOut Y γ β h w = refOut Y γ β h w := by
  choose y hy using hY
  obtain ⟨g, rfl⟩ := hγ
  obtain ⟨c, rfl⟩ := hβ
  obtain rfl : Y = Cert.Plane.Yc y := funext fun h => funext fun w => hy h w
  exact Cert.Plane.out_eq y g c h w

theorem kerC_eq_refC (x : SX.Idx → EReal) (dl : SD.Idx → EReal) (nz : SN.Idx → EReal) (cw : SW.Idx → EReal)
    (nw bs : SR.Idx → EReal) (dw : SA.Idx → EReal) (db : SB.Idx → EReal)
    (hx : Real x) (hdl : Real dl) (hnz : Real nz) (hcw : Real cw) (hnw : Real nw) (hbs : Real bs)
    (hdw : Real dw) (hdb : Real db) (b : Fin 8) (h w : Fin 64) (f : Fin 512) :
    kerC x dl nz cw nw bs dw db b h w f = refC x dl nz cw nw bs dw db b h w f :=
  kerOut_eq_refOut _ _ _ (fun h' w' => act_real x cw nz nw bs hx hcw hnz hnw hbs b h' w' f)
    (gb_real dl dw db hdl hdw hdb b (lo f)) (gb_real dl dw db hdl hdw hdb b (hi f)) h w

end Cert.Spec

end
-- ==== Proof.Finite.lean ====
/-
  From the certificate's precondition to "every input entry is a real number".

  The precondition says, of each of the eight argument arrays a, that the conjunction over all its entries of
  |a i| < +∞ is true (the bit 1), and it is the conjunction of these eight bits.  A conjunction of bits is 1 exactly when
  both are; a conjunction over all entries that is 1 had a 1 at every entry.  The word 0x7F800000 denotes +∞, and
  |x| = max x (−x) is below +∞ only for a real x: for x = +∞ and for x = −∞ it is +∞ itself.
-/
import proofs.«126082_j29540785062600_2_alg».proof.Pre_finite_inputs
import proofs.«126082_j29540785062600_2_alg».proof.Proof.Spec
import Idealize.ShloMosaic.Lib.ReduceAll
import Idealize.ShloMosaic.Lib.ValueIdx

noncomputable section

namespace Cert.Finite

open Idealize.ShloMosaic Cert.Pre_finite_inputs

/-- The result of a reduction over all axes has one index. -/
instance : Subsingleton S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: if the conjunction over all entries of |a i| < +∞ is 1, every entry is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) : Cert.Spec.Real a := by
  intro i
  have hi := Host.reduce_andi_all _ init hr hu _ e i
  exact real_of_abs_lt (a i) hi

theorem real_of_pre [Cert.Pre_finite_inputs.Facts] (a0 : FVec Ideal S8x64x64x512 .f32) (a1 : FVec Ideal S8x512 .f32)
    (a2 : FVec Ideal S8x64x64x1 .f32) (a3 : FVec Ideal S512x512 .f32) (a4 a5 : FVec Ideal S1x1x1x512 .f32)
    (a6 : FVec Ideal S512x1024 .f32) (a7 : FVec Ideal S1024 .f32)
    (h : Cert.Pre_finite_inputs.fn (F := Ideal) a0 a1 a2 a3 a4 a5 a6 a7 = fun _ => 1#1) :
    Cert.Spec.Real a0 ∧ Cert.Spec.Real a1 ∧ Cert.Spec.Real a2 ∧ Cert.Spec.Real a3 ∧ Cert.Spec.Real a4 ∧
      Cert.Spec.Real a5 ∧ Cert.Spec.Real a6 ∧ Cert.Spec.Real a7 := by
  have e := congrFun h ValueIdx.ix0
  dsimp only [fn, fn_part1, fn_part2] at e
  simp only [andi, IntOp.andi_eq_one] at e
  obtain ⟨⟨⟨⟨⟨⟨⟨e0, e1⟩, e2⟩, e3⟩, e4⟩, e5⟩, e6⟩, e7⟩ := e
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7⟩

end Cert.Finite

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.KerHost.lean ====
/-
  The five operand arrays that the host operations before the region write, read at an index, as the region finds them.

  The noise [8,64,64,1] is reshaped to [8,64,64] and the noise weight and the bias [1,1,1,512] to [1,512]: a reshape keeps
  the row-major position, and dropping unit axes keeps the remaining coordinates.  The style array [8,1024] is the latent
  [8,512] times the dense weights [512,1024] plus the dense bias [1024] broadcast along the rows, so at (b, k) it is
  Σ_c d[b,c]·A[c,k] + a[k]; its column halves [0,512) and [512,1024), each reshaped to [8,1,512], are the scale and the
  shift: at (b, 0, j) they read the style array at (b, j) and at (b, 512 + j).
-/
import proofs.«126082_j29540785062600_2_alg».proof.Proof.Gen.KernelIdeal.Frame
import proofs.«126082_j29540785062600_2_alg».proof.Proof.Spec
import proofs.«126082_j29540785062600_2_alg».proof.Proof.LibMlpAt
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KerValue

open Cert.KernelIdeal Idealize.ShloMosaic Idealize.ShloMosaic.TcCoe Idealize.ShloMosaic.ValueIdx Idealize.SL.Sem

variable [Facts]
open Facts₀ Facts

/-! ## The operations at an index, over variables -/

/-- The noise reshaped [8,64,64,1] → [8,64,64] reads, at (b, h, w), the noise at (b, h, w, 0). -/
theorem hostNoise_apply (A : FVec Ideal S8x64x64x1 .f32) (b : Fin 8) (h w : Fin 64) :
    shapeCast S8x64x64 A shapeCasts_S8x64x64x1_S8x64x64 (ix3 b h w) = A (ix4 b h w (0 : Fin 1)) := by
  refine shapeCast_apply A shapeCasts_S8x64x64x1_S8x64x64 (ix3 b h w) (ix4 b h w (0 : Fin 1)) ?_
  rw [Shape.rowMajor_val_four, Shape.rowMajor_val_three]
  show ((b.val * 64 + h.val) * 64 + w.val) * 1 + 0 = (b.val * 64 + h.val) * 64 + w.val
  omega

/-- A row reshaped [1,1,1,512] → [1,512] reads, at (0, j), the row at (0, 0, 0, j). -/
theorem hostRow_apply (A : FVec Ideal S1x1x1x512 .f32) (j : Fin 512) :
    shapeCast S1x512 A shapeCasts_S1x1x1x512_S1x512 (ix2 (0 : Fin 1) j)
      = A (ix4 (0 : Fin 1) (0 : Fin 1) (0 : Fin 1) j) := by
  refine shapeCast_apply A shapeCasts_S1x1x1x512_S1x512 (ix2 (0 : Fin 1) j) (ix4 (0 : Fin 1) (0 : Fin 1) (0 : Fin 1) j) ?_
  rw [Shape.rowMajor_val_four, Shape.rowMajor_val_two]
  show ((0 * 1 + 0) * 1 + 0) * 512 + j.val = 0 * 512 + j.val
  omega

/-- The host's product [8,512] × [512,1024] at (b, k): the sum over the contracted coordinate. -/
theorem hostDense_apply (A1 : FVec Ideal S8x512 .f32) (A6 : FVec Ideal S512x1024 .f32) (b : Fin 8) (k : Fin 1024) :
    Host.dotGeneral dot_S8x512_S512x1024_S8x1024_1_0_0_1_n_n none A1 A6 (ix2 b k)
      = ∑ c : Fin 512, A1 (ix2 b c) * A6 (ix2 c k) :=
  Cert.Mlp.dotGeneral_at dot_S8x512_S512x1024_S8x1024_1_0_0_1_n_n_wf none A1 A6 b k

/-- The dense bias [1024], made a row [1,1024] and broadcast along the rows of [8,1024], reads the bias at k. -/
theorem hostDenseBias_apply (A7 : FVec Ideal S1024 .f32) (b : Fin 8) (k : Fin 1024) :
    broadcastInDim S8x1024 ![0, 1] bcast_S1x1024_S8x1024_0_1 (broadcastInDim S1x1024 ![1] bcast_S1024_S1x1024_1 A7) (ix2 b k)
      = A7 (ix1 k) := by
  refine (Cert.Mlp.bcastRow_at bcast_S1x1024_S8x1024_0_1 _ b k).trans ?_
  refine broadcastInDim_apply _ bcast_S1024_S1x1024_1 A7 (ix2 (0 : Fin 1) k) (ix1 k) fun ax => ?_
  match ax with
  | ⟨0, _⟩ =>
    show k.val = if (1024 : Nat) = 1 then 0 else k.val
    rw [if_neg (by decide)]

/-- The style array [8,1024]: the latent times the dense weights plus the dense bias. -/
def styleArr (A1 : FVec Ideal S8x512 .f32) (A6 : FVec Ideal S512x1024 .f32) (A7 : FVec Ideal S1024 .f32) :
    FVec Ideal S8x1024 .f32 :=
  addf (Host.dotGeneral dot_S8x512_S512x1024_S8x1024_1_0_0_1_n_n none A1 A6)
    (broadcastInDim S8x1024 ![0, 1] bcast_S1x1024_S8x1024_0_1 (broadcastInDim S1x1024 ![1] bcast_S1024_S1x1024_1 A7))

/-- The style array at (b, k) is the specification's style vector. -/
theorem styleArr_apply (A1 : FVec Ideal S8x512 .f32) (A6 : FVec Ideal S512x1024 .f32) (A7 : FVec Ideal S1024 .f32)
    (b : Fin 8) (k : Fin 1024) : styleArr A1 A6 A7 (ix2 b k) = Cert.Spec.gb A1 A6 A7 b k := by
  unfold styleArr Cert.Spec.gb
  rw [addf_apply, hostDense_apply, hostDenseBias_apply]

/-- The low column half of an [8,1024] array, reshaped to [8,1,512], reads at (b, 0, j) the array at (b, j). -/
theorem lowHalf_apply (G : FVec Ideal S8x1024 .f32) (b : Fin 8) (j : Fin 512) :
    shapeCast S8x1x512 (extractStridedSlice S8x512 ![0, 0] G slices_S8x1024_S8x512_0_0) shapeCasts_S8x512_S8x1x512
      (ix3 b (0 : Fin 1) j) = G (ix2 b (Cert.Spec.lo j)) := by
  refine (shapeCast_apply _ shapeCasts_S8x512_S8x1x512 (ix3 b (0 : Fin 1) j) (ix2 b j) ?_).trans ?_
  · rw [Shape.rowMajor_val_three, Shape.rowMajor_val_two]
    show b.val * 512 + j.val = (b.val * 1 + 0) * 512 + j.val
    omega
  · exact slice2_axis1_apply 0 G slices_S8x1024_S8x512_0_0 b j (Cert.Spec.lo j) (Nat.zero_add _).symm

/-- The high column half, reshaped to [8,1,512], reads at (b, 0, j) the array at (b, 512 + j). -/
theorem highHalf_apply (G : FVec Ideal S8x1024 .f32) (b : Fin 8) (j : Fin 512) :
    shapeCast S8x1x512 (extractStridedSlice S8x512 ![0, 512] G slices_S8x1024_S8x512_0_512) shapeCasts_S8x512_S8x1x512
      (ix3 b (0 : Fin 1) j) = G (ix2 b (Cert.Spec.hi j)) := by
  refine (shapeCast_apply _ shapeCasts_S8x512_S8x1x512 (ix3 b (0 : Fin 1) j) (ix2 b j) ?_).trans ?_
  · rw [Shape.rowMajor_val_three, Shape.rowMajor_val_two]
    show b.val * 512 + j.val = (b.val * 1 + 0) * 512 + j.val
    omega
  · exact slice2_axis1_apply 512 G slices_S8x1024_S8x512_0_512 b j (Cert.Spec.hi j) rfl

/-! ## The arrays as the region finds them -/

variable (m : (ℓ : Loc nD τ sig) → Buf (Elt Ideal) ℓ) (c : Dev nD)

theorem V_noise (b : Fin 8) (h w : Fin 64) :
    Gen.V m c main_v0 (ix3 b h w) = m ((c : Thread nD τ).loc main_arg2) (ix4 b h w (0 : Fin 1)) := by
  have e : (Gen.V m c main_v0 : S8x64x64.Idx → EReal)
      = shapeCast S8x64x64 (m ((c : Thread nD τ).loc main_arg2)) shapeCasts_S8x64x64x1_S8x64x64 := by
    dsimp only [Gen.V, Gen.hostOps0]; after_results; rfl
  exact (congrFun e (ix3 b h w)).trans (hostNoise_apply _ b h w)

theorem V_nw (j : Fin 512) :
    Gen.V m c main_v1 (ix2 (0 : Fin 1) j)
      = m ((c : Thread nD τ).loc main_arg4) (ix4 (0 : Fin 1) (0 : Fin 1) (0 : Fin 1) j) := by
  have e : (Gen.V m c main_v1 : S1x512.Idx → EReal)
      = shapeCast S1x512 (m ((c : Thread nD τ).loc main_arg4)) shapeCasts_S1x1x1x512_S1x512 := by
    dsimp only [Gen.V, Gen.hostOps0]; after_results; rfl
  exact (congrFun e (ix2 (0 : Fin 1) j)).trans (hostRow_apply _ j)

theorem V_bias (j : Fin 512) :
    Gen.V m c main_v2 (ix2 (0 : Fin 1) j)
      = m ((c : Thread nD τ).loc main_arg5) (ix4 (0 : Fin 1) (0 : Fin 1) (0 : Fin 1) j) := by
  have e : (Gen.V m c main_v2 : S1x512.Idx → EReal)
      = shapeCast S1x512 (m ((c : Thread nD τ).loc main_arg5)) shapeCasts_S1x1x1x512_S1x512 := by
    dsimp only [Gen.V, Gen.hostOps0]; after_results; rfl
  exact (congrFun e (ix2 (0 : Fin 1) j)).trans (hostRow_apply _ j)

theorem V_gamma (b : Fin 8) (j : Fin 512) :
    Gen.V m c main_v8 (ix3 b (0 : Fin 1) j)
      = Cert.Spec.gb (m ((c : Thread nD τ).loc main_arg1)) (m ((c : Thread nD τ).loc main_arg6))
          (m ((c : Thread nD τ).loc main_arg7)) b (Cert.Spec.lo j) := by
  have e : (Gen.V m c main_v8 : S8x1x512.Idx → EReal)
      = shapeCast S8x1x512 (extractStridedSlice S8x512 ![0, 0]
          (styleArr (m ((c : Thread nD τ).loc main_arg1)) (m ((c : Thread nD τ).loc main_arg6))
            (m ((c : Thread nD τ).loc main_arg7))) slices_S8x1024_S8x512_0_0) shapeCasts_S8x512_S8x1x512 := by
    dsimp only [Gen.V, Gen.hostOps0]; after_results; rfl
  exact (congrFun e (ix3 b (0 : Fin 1) j)).trans ((lowHalf_apply _ b j).trans (styleArr_apply _ _ _ b _))

theorem V_beta (b : Fin 8) (j : Fin 512) :
    Gen.V m c main_v10 (ix3 b (0 : Fin 1) j)
      = Cert.Spec.gb (m ((c : Thread nD τ).loc main_arg1)) (m ((c : Thread nD τ).loc main_arg6))
          (m ((c : Thread nD τ).loc main_arg7)) b (Cert.Spec.hi j) := by
  have e : (Gen.V m c main_v10 : S8x1x512.Idx → EReal)
      = shapeCast S8x1x512 (extractStridedSlice S8x512 ![0, 512]
          (styleArr (m ((c : Thread nD τ).loc main_arg1)) (m ((c : Thread nD τ).loc main_arg6))
            (m ((c : Thread nD τ).loc main_arg7))) slices_S8x1024_S8x512_0_512) shapeCasts_S8x512_S8x1x512 := by
    dsimp only [Gen.V, Gen.hostOps0]; after_results; rfl
  exact (congrFun e (ix3 b (0 : Fin 1) j)).trans ((highHalf_apply _ b j).trans (styleArr_apply _ _ _ b _))

end Cert.KernelIdeal.KerValue

end
-- ==== Proof.KerAct.lean ====
/-
  The kernel body's activation, read at one entry of the (64, 64, 256) tile.

  The body flattens the staged x block [1,64,64,512] to [4096,512] (row h·64 + w), multiplies it by the staged weight
  block [512,256] into a zero accumulator, and folds the product back to [64,64,256]; a change of float format is the
  identity on the extended reals, so at (h, w, f) the product is Σ_c x[0,h,w,c]·W[c,f].  It then adds the noise weight at f
  times the noise at (h, w) and the bias at f — each a broadcast of a reshaped row or plane — and applies the leaky
  rectifier.  Nothing here needs the entries to be finite.
-/
import proofs.«126082_j29540785062600_2_alg».proof.Proof.Gen.KernelIdeal.Skeleton
import proofs.«126082_j29540785062600_2_alg».proof.Proof.Spec
import proofs.«126082_j29540785062600_2_alg».proof.Proof.LibMlpAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Idealize.ShloMosaic Idealize.ShloMosaic.ValueIdx

variable [Facts]
open Facts₀ Facts

/-- The flattened row of pixel (h, w). -/
abbrev row (h w : Fin 64) : Fin 4096 := ⟨h.val * 64 + w.val, by omega⟩

/-- The x block flattened to [4096, 512] reads, at (row h w, c), the block at (0, h, w, c). -/
theorem flat_x_apply (P0 : FVec Ideal S1x64x64x512 .f32) (h w : Fin 64) (c : Fin 512) :
    (shapeCast S4096x512 (truncf (F := Ideal) .bf16 (shapeCast S64x64x512 P0 shapeCasts_S1x64x64x512_S64x64x512) bitsLt_bf16_f32)
      shapeCasts_S64x64x512_S4096x512 (ix2 (row h w) c) : EReal) = P0 (ix4 (0 : Fin 1) h w c) := by
  refine (shapeCast_apply _ shapeCasts_S64x64x512_S4096x512 (ix2 (row h w) c) (ix3 h w c) ?_).trans ?_
  · rw [Shape.rowMajor_val_three, Shape.rowMajor_val_two]
    show (h.val * 64 + w.val) * 512 + c.val = (h.val * 64 + w.val) * 512 + c.val
    rfl
  · rw [truncf_apply]
    exact shapeCast_1abc_abc_apply P0 shapeCasts_S1x64x64x512_S64x64x512 h w c

/-- The product folded back to [64, 64, 256] reads, at (h, w, f), the product at (row h w, f). -/
theorem fold_apply (M : FVec Ideal S4096x256 .f32) (h w : Fin 64) (f : Fin 256) :
    shapeCast S64x64x256 M shapeCasts_S4096x256_S64x64x256 (ix3 h w f) = M (ix2 (row h w) f) := by
  refine shapeCast_apply M shapeCasts_S4096x256_S64x64x256 (ix3 h w f) (ix2 (row h w) f) ?_
  rw [Shape.rowMajor_val_three, Shape.rowMajor_val_two]
  show (h.val * 64 + w.val) * 256 + f.val = (h.val * 64 + w.val) * 256 + f.val
  rfl

/-- A [1, 256] row, viewed as [1, 1, 256] and broadcast over the tile, reads the row at f. -/
theorem rowBcast_apply (P : FVec Ideal S1x256 .f32) (h w : Fin 64) (f : Fin 256) :
    broadcastTo S64x64x256 (shapeCast S1x1x256 (shapeCast S1x256 P shapeCasts_S1x256_S1x256) shapeCasts_S1x256_S1x1x256)
      broadcasts_S1x1x256_S64x64x256 (ix3 h w f) = P (ix2 (0 : Fin 1) f) := by
  refine (broadcastTo_apply _ broadcasts_S1x1x256_S64x64x256 (ix3 h w f) (ix3 (0 : Fin 1) (0 : Fin 1) f) ?_).trans ?_
  · intro a
    match a with
    | ⟨0, _⟩ => rfl
    | ⟨1, _⟩ => rfl
    | ⟨2, _⟩ => rfl
  · rw [shapeCast_self]
    exact shapeCast_ab_1ab_apply P shapeCasts_S1x256_S1x1x256 (0 : Fin 1) (0 : Fin 1) f

/-- The noise plane [1, 64, 64], viewed as [64, 64, 1] and broadcast along the channels, reads the plane at (h, w). -/
theorem planeBcast_apply (P : FVec Ideal S1x64x64 .f32) (h w : Fin 64) (f : Fin 256) :
    broadcastTo S64x64x256 (shapeCast S64x64x1 (shapeCast S64x64 P shapeCasts_S1x64x64_S64x64) shapeCasts_S64x64_S64x64x1)
      broadcasts_S64x64x1_S64x64x256 (ix3 h w f) = P (ix3 (0 : Fin 1) h w) := by
  refine (broadcastTo_apply _ broadcasts_S64x64x1_S64x64x256 (ix3 h w f) (ix3 h w (0 : Fin 1)) ?_).trans ?_
  · intro a
    match a with
    | ⟨0, _⟩ => rfl
    | ⟨1, _⟩ => rfl
    | ⟨2, _⟩ => rfl
  · refine (shapeCast_apply _ shapeCasts_S64x64_S64x64x1 (ix3 h w (0 : Fin 1)) (ix2 h w) ?_).trans ?_
    · rw [Shape.rowMajor_val_three, Shape.rowMajor_val_two]
      show h.val * 64 + w.val = (h.val * 64 + w.val) * 1 + 0
      omega
    · exact shapeCast_1ab_ab_apply P shapeCasts_S1x64x64_S64x64 h w

/-- The product into a zero accumulator at (r, f): the sum over the contracted channel. -/
theorem mm_apply (L : FVec Ideal S4096x512 .bf16) (R : FVec Ideal S512x256 .bf16) (r : Fin 4096) (f : Fin 256) :
    matmul dot_S4096x512_S512x256_S4096x256_1_0_0_1_n_n none L R (constant S4096x256 .f32 0x00000000#32) (ix2 r f)
      = ∑ c : Fin 512, L (ix2 r c) * R (ix2 c f) :=
  Cert.Mlp.matmul_zero_at dot_S4096x512_S512x256_S4096x256_1_0_0_1_n_n_wf none L R r f

/-- THE ACTIVATION at (h, w, f): the leaky rectifier of the product plus noise weight times noise plus bias. -/
theorem pay2_apply (P0 : Vec Ideal S1x64x64x512 .f32) (P1 : Vec Ideal S512x256 .f32) (P2 : Vec Ideal S1x64x64 .f32)
    (P3 P4 : Vec Ideal S1x256 .f32) (h w : Fin 64) (f : Fin 256) :
    Gen.k0_pay2 (F := Ideal) P0 P1 P2 P3 P4 (ix3 h w f)
      = Cert.Spec.lrelu ((∑ c : Fin 512, P0 (ix4 (0 : Fin 1) h w c) * P1 (ix2 c f))
          + P3 (ix2 (0 : Fin 1) f) * P2 (ix3 (0 : Fin 1) h w) + P4 (ix2 (0 : Fin 1) f)) := by
  unfold Gen.k0_pay2
  simp only [select_apply, cmpf_apply, mulf_apply, addf_apply, broadcast_apply, fold_apply, rowBcast_apply,
    planeBcast_apply, mm_apply, flat_x_apply, truncf_apply]
  rfl

end Cert.KernelIdeal.KerValue

end
-- ==== Proof.KerSums.lean ====
/-
  The kernel's two successive lane sums, read at one channel.

  A (64, 64, 256) tile is summed along its leading axis (over h) into (64, 256), and that again along its leading axis
  (over w) into (256): at channel f the result is Σ_w Σ_h Z[h,w,f], which is Σ_h Σ_w Z[h,w,f] since a finite double
  sum of extended reals may be taken in either order.  Both accumulators start from the zero word, the sum's neutral
  element.
-/
import proofs.«126082_j29540785062600_2_alg».proof.Proof.Gen.KernelIdeal
import Idealize.ShloMosaic.Lib.ValueIdx
import Idealize.ShloMosaic.PureOps.Ideal.Laws

noncomputable section

namespace Cert.KernelIdeal.KerValue

open Cert.KernelIdeal Idealize.ShloMosaic Idealize.ShloMosaic.ValueIdx

variable [Facts]
open Facts₀ Facts

/-- The first sum at (w, f): over h. -/
theorem sumH_apply (Z : FVec Ideal S64x64x256 .f32) (w : Fin 64) (f : Fin 256) :
    multiReduction .add [0] S64x256 Z 0x00000000#32 reduces_S64x64x256_S64x256 (.inl rfl) rfl (ix2 w f)
      = ∑ h : Fin 64, Z (ix3 h w f) := by
  refine (Ideal.multiReduction_add_single Z _ reduces_S64x64x256_S64x256 _ _ (ix2 w f)).trans ?_
  refine Finset.sum_congr rfl fun h _ => congrArg Z ?_
  funext a; apply Fin.ext
  match a with
  | ⟨0, _⟩ => rfl
  | ⟨1, _⟩ => rfl
  | ⟨2, _⟩ => rfl

/-- The second sum at f: over w. -/
theorem sumW_apply (Z : FVec Ideal S64x256 .f32) (f : Fin 256) :
    multiReduction .add [0] S256 Z 0x00000000#32 reduces_S64x256_S256 (.inl rfl) rfl (ix1 f)
      = ∑ w : Fin 64, Z (ix2 w f) := by
  refine (Ideal.multiReduction_add_single Z _ reduces_S64x256_S256 _ _ (ix1 f)).trans ?_
  refine Finset.sum_congr rfl fun w _ => congrArg Z ?_
  funext a; apply Fin.ext
  match a with
  | ⟨0, _⟩ => rfl
  | ⟨1, _⟩ => rfl

/-- Both sums at f, in the order h then w. -/
theorem sum2_apply (Z : FVec Ideal S64x64x256 .f32) (f : Fin 256) :
    multiReduction .add [0] S256
        (multiReduction .add [0] S64x256 Z 0x00000000#32 reduces_S64x64x256_S64x256 (.inl rfl) rfl)
        0x00000000#32 reduces_S64x256_S256 (.inl rfl) rfl (ix1 f)
      = ∑ h : Fin 64, ∑ w : Fin 64, Z (ix3 h w f) := by
  rw [sumW_apply, Finset.sum_comm]
  exact Finset.sum_congr rfl fun w _ => sumH_apply Z w f

end Cert.KernelIdeal.KerValue

end
-- ==== Proof.KerBlock.lean ====
/-
  The block the kernel body stores, read at one entry.

  At (0, h, w, f) of the [1, 64, 64, 256] block the body stores  Y[h,w,f]·s + (β − mu·s)  with
  mu = (Σ_h Σ_w Y[·,·,f])·2⁻¹²,  s = rsqrt(max((Σ_h Σ_w Y²)·2⁻¹² − mu·mu, 0) + ε)·(1 + γ[f]),  γ and β the two staged
  style rows at f and Y the tile's activation: the folded instance normalisation of the channel's 64×64 plane.
-/
import proofs.«126082_j29540785062600_2_alg».proof.Proof.Gen.KernelIdeal.Value
import proofs.«126082_j29540785062600_2_alg».proof.Proof.Spec
import proofs.«126082_j29540785062600_2_alg».proof.Proof.KerAct
import proofs.«126082_j29540785062600_2_alg».proof.Proof.KerSums

noncomputable section

namespace Cert.KernelIdeal.KerValue

open Cert.KernelIdeal Idealize.ShloMosaic Idealize.ShloMosaic.ValueIdx

variable [Facts]
open Facts₀ Facts

/-- The tile's activation on channel f, as a function of the pixel: from the staged x, weight, noise, noise-weight and bias
    blocks. -/
def actB (P0 : Vec Ideal S1x64x64x512 .f32) (P1 : Vec Ideal S512x256 .f32) (P2 : Vec Ideal S1x64x64 .f32)
    (P3 P4 : Vec Ideal S1x256 .f32) (f : Fin 256) (h w : Fin 64) : EReal :=
  Cert.Spec.lrelu ((∑ c : Fin 512, P0 (ix4 (0 : Fin 1) h w c) * P1 (ix2 c f))
    + P3 (ix2 (0 : Fin 1) f) * P2 (ix3 (0 : Fin 1) h w) + P4 (ix2 (0 : Fin 1) f))

/-- The stored block at (0, h, w, f) is the kernel's normalised value of the channel's plane. -/
theorem block_apply (P0 : Vec Ideal S1x64x64x512 .f32) (P1 : Vec Ideal S512x256 .f32) (P2 : Vec Ideal S1x64x64 .f32)
    (P3 P4 : Vec Ideal S1x256 .f32) (P5 P6 : Vec Ideal S1x1x256 .f32) (h w : Fin 64) (f : Fin 256) :
    Value.E7 (F := Ideal) P0 P1 P2 P3 P4 P5 P6 (ix4 (0 : Fin 1) h w f)
      = Cert.Spec.kerOut (actB P0 P1 P2 P3 P4 f) (P5 (ix3 (0 : Fin 1) (0 : Fin 1) f)) (P6 (ix3 (0 : Fin 1) (0 : Fin 1) f)) h w := by
  have e0 : Value.ix7_0 (ix4 (0 : Fin 1) h w f) = ix3 h w f := by
    funext a
    match a with
    | ⟨0, _⟩ => rfl
    | ⟨1, _⟩ => rfl
    | ⟨2, _⟩ => rfl
  have e1 : Value.ix7_1 (ix4 (0 : Fin 1) h w f) = ix1 f := by
    funext a
    match a with
    | ⟨0, _⟩ => rfl
  have e2 : Value.ix7_2 (ix4 (0 : Fin 1) h w f) = ix1 f := by
    funext a
    match a with
    | ⟨0, _⟩ => rfl
  have e3 : Value.ix7_3 (ix4 (0 : Fin 1) h w f) = ix1 f := by
    funext a
    match a with
    | ⟨0, _⟩ => rfl
  have e4 : Value.ix7_4 (ix4 (0 : Fin 1) h w f) = ix1 f := by
    funext a
    match a with
    | ⟨0, _⟩ => rfl
  have e7 : Value.ix7_7 (ix4 (0 : Fin 1) h w f) = ix1 f := by
    funext a
    match a with
    | ⟨0, _⟩ => rfl
  have e8 : Value.ix7_8 (ix4 (0 : Fin 1) h w f) = ix1 f := by
    funext a
    match a with
    | ⟨0, _⟩ => rfl
  have e9 : Value.ix7_9 (ix4 (0 : Fin 1) h w f) = ix1 f := by
    funext a
    match a with
    | ⟨0, _⟩ => rfl
  have e10 : Value.ix7_10 (ix4 (0 : Fin 1) h w f) = ix1 f := by
    funext a
    match a with
    | ⟨0, _⟩ => rfl
  have e11 : Value.ix7_11 (ix4 (0 : Fin 1) h w f) = ix1 f := by
    funext a
    match a with
    | ⟨0, _⟩ => rfl
  have e5 : Value.ix7_5 (ix4 (0 : Fin 1) h w f) = ix3 (0 : Fin 1) (0 : Fin 1) f := by
    funext a
    match a with
    | ⟨0, _⟩ => rfl
    | ⟨1, _⟩ => rfl
    | ⟨2, _⟩ => rfl
  have e6 : Value.ix7_6 (ix4 (0 : Fin 1) h w f) = ix3 (0 : Fin 1) (0 : Fin 1) f := by
    funext a
    match a with
    | ⟨0, _⟩ => rfl
    | ⟨1, _⟩ => rfl
    | ⟨2, _⟩ => rfl
  have e12 : Value.ix7_12 (ix4 (0 : Fin 1) h w f) = ix3 (0 : Fin 1) (0 : Fin 1) f := by
    funext a
    match a with
    | ⟨0, _⟩ => rfl
    | ⟨1, _⟩ => rfl
    | ⟨2, _⟩ => rfl
  simp only [Value.E7, e0, e1, e2, e3, e4, e5, e6, e7, e8, e9, e10, e11, e12]
  rw [sum2_apply (Gen.k0_pay2 P0 P1 P2 P3 P4) f,
    sum2_apply (mulf (Gen.k0_pay2 P0 P1 P2 P3 P4) (Gen.k0_pay2 P0 P1 P2 P3 P4)) f]
  simp only [mulf_apply, pay2_apply]
  rfl

end Cert.KernelIdeal.KerValue

end
-- ==== Proof.KerArray.lean ====
/-
  From the blocks the grid points write back to the whole result array.

  The grid is 8 × 2: point (b, φ) stages batch b of x and of the noise plane, column block φ (256 channels) of the weight,
  of the noise weight and of the bias, and of batch b's two style rows, and writes back block (b, 0, 0, φ) of the
  result, a [1, 64, 64, 256] box.  Reading each staged block where its window's index map puts it in its array — a
  block's element sits at block index × block size + its coordinate inside the block — the box written at (b, φ) is the
  restriction of ONE function of the argument arrays, the kernel's normalised value K[b,h,w,f] with f = 256·φ + f'.
  The sixteen boxes tile the array, so after the run the whole array is that function.
-/
import proofs.«126082_j29540785062600_2_alg».proof.Proof.Gen.KernelIdeal.Value
import proofs.«126082_j29540785062600_2_alg».proof.Proof.Spec
import proofs.«126082_j29540785062600_2_alg».proof.Proof.KerBlock
import Idealize.ShloMosaic.Lib.Pipeline.Value

set_option maxRecDepth 16384

noncomputable section

namespace Cert.KernelIdeal.KerValue

open Cert.KernelIdeal Idealize.ShloMosaic Idealize.ShloMosaic.TcCoe Idealize.ShloMosaic.ValueIdx Idealize.SL.Sem
open Idealize.ShloMosaic.Pipeline (Dat)

variable [Facts]
open Facts₀ Facts

/-- A stored box at (0, h, w, f') is the kernel's value at (b, h, w, F) as soon as every staged block reads its array at
    batch b and channel F: stated over arbitrary vectors of the blocks' shapes. -/
theorem tile_eq (P0 : Vec Ideal S1x64x64x512 .f32) (P1 : Vec Ideal S512x256 .f32) (P2 : Vec Ideal S1x64x64 .f32)
    (P3 P4 : Vec Ideal S1x256 .f32) (P5 P6 : Vec Ideal S1x1x256 .f32)
    (x : Cert.Spec.SX.Idx → EReal) (dl : Cert.Spec.SD.Idx → EReal) (nz : Cert.Spec.SN.Idx → EReal) (cw : Cert.Spec.SW.Idx → EReal)
    (nw bs : Cert.Spec.SR.Idx → EReal) (dw : Cert.Spec.SA.Idx → EReal) (db : Cert.Spec.SB.Idx → EReal)
    (b : Fin 8) (F : Fin 512) (f : Fin 256)
    (h0 : ∀ (h w : Fin 64) (c : Fin 512), P0 (ix4 (0 : Fin 1) h w c) = x (ix4 b h w c))
    (h1 : ∀ c : Fin 512, P1 (ix2 c f) = cw (ix2 c F))
    (h2 : ∀ h w : Fin 64, P2 (ix3 (0 : Fin 1) h w) = nz (ix4 b h w (0 : Fin 1)))
    (h3 : P3 (ix2 (0 : Fin 1) f) = nw (ix4 (0 : Fin 1) (0 : Fin 1) (0 : Fin 1) F))
    (h4 : P4 (ix2 (0 : Fin 1) f) = bs (ix4 (0 : Fin 1) (0 : Fin 1) (0 : Fin 1) F))
    (h5 : P5 (ix3 (0 : Fin 1) (0 : Fin 1) f) = Cert.Spec.gb dl dw db b (Cert.Spec.lo F))
    (h6 : P6 (ix3 (0 : Fin 1) (0 : Fin 1) f) = Cert.Spec.gb dl dw db b (Cert.Spec.hi F)) (h w : Fin 64) :
    Value.E7 (F := Ideal) P0 P1 P2 P3 P4 P5 P6 (ix4 (0 : Fin 1) h w f) = Cert.Spec.kerC x dl nz cw nw bs dw db b h w F := by
  rw [block_apply, h5, h6]
  have hact : actB P0 P1 P2 P3 P4 f = fun h' w' => Cert.Spec.act x cw nz nw bs b h' w' F := by
    funext h' w'
    unfold actB Cert.Spec.act
    rw [h2, h3, h4]
    simp only [h0, h1]
  rw [hact]
  rfl

variable (m : (ℓ : Loc nD τ sig) → Buf (Elt Ideal) ℓ) (ρ : Dev nD → PrngReg)

/-- The five operand arrays the host operations write before the call, read at an index: the noise with its unit
    axis dropped, the noise weight and the bias as one row, and the two halves of the style rows. -/
structure HostReads (c : Dev nD) : Prop where
  noise : ∀ (b : Fin 8) (h w : Fin 64), Gen.V m c main_v0 (ix3 b h w) = (m ((c : Thread nD τ).loc main_arg2)) (ix4 b h w (0 : Fin 1))
  nw : ∀ j : Fin 512, Gen.V m c main_v1 (ix2 (0 : Fin 1) j) = (m ((c : Thread nD τ).loc main_arg4)) (ix4 (0 : Fin 1) (0 : Fin 1) (0 : Fin 1) j)
  bias : ∀ j : Fin 512, Gen.V m c main_v2 (ix2 (0 : Fin 1) j) = (m ((c : Thread nD τ).loc main_arg5)) (ix4 (0 : Fin 1) (0 : Fin 1) (0 : Fin 1) j)
  gamma : ∀ (b : Fin 8) (j : Fin 512), Gen.V m c main_v8 (ix3 b (0 : Fin 1) j)
    = Cert.Spec.gb (m ((c : Thread nD τ).loc main_arg1)) (m ((c : Thread nD τ).loc main_arg6)) (m ((c : Thread nD τ).loc main_arg7)) b (Cert.Spec.lo j)
  beta : ∀ (b : Fin 8) (j : Fin 512), Gen.V m c main_v10 (ix3 b (0 : Fin 1) j)
    = Cert.Spec.gb (m ((c : Thread nD τ).loc main_arg1)) (m ((c : Thread nD τ).loc main_arg6)) (m ((c : Thread nD τ).loc main_arg7)) b (Cert.Spec.hi j)

/-- The whole result array as one function of the argument arrays. -/
def G (c : Dev nD) : S8x64x64x512.Idx → EReal := fun i =>
  Cert.Spec.kerC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen grid points: which block of its array each window stages at a
    point, relative to the block of the result written there. -/
theorem idx_facts : ∀ t : Fin cfg0.N,
    (win0_0.index t (0 : Fin 4) = win0_7.index t (0 : Fin 4) ∧ win0_0.index t (1 : Fin 4) = 0 ∧ win0_0.index t (2 : Fin 4) = 0 ∧ win0_0.index t (3 : Fin 4) = 0)
    ∧ (win0_1.index t (0 : Fin 3) = win0_7.index t (0 : Fin 4) ∧ win0_1.index t (1 : Fin 3) = 0 ∧ win0_1.index t (2 : Fin 3) = 0)
    ∧ (win0_2.index t (0 : Fin 2) = 0 ∧ win0_2.index t (1 : Fin 2) = win0_7.index t (3 : Fin 4))
    ∧ (win0_3.index t (0 : Fin 2) = 0 ∧ win0_3.index t (1 : Fin 2) = win0_7.index t (3 : Fin 4))
    ∧ (win0_4.index t (0 : Fin 2) = 0 ∧ win0_4.index t (1 : Fin 2) = win0_7.index t (3 : Fin 4))
    ∧ (win0_5.index t (0 : Fin 3) = win0_7.index t (0 : Fin 4) ∧ win0_5.index t (1 : Fin 3) = 0 ∧ win0_5.index t (2 : Fin 3) = win0_7.index t (3 : Fin 4))
    ∧ (win0_6.index t (0 : Fin 3) = win0_7.index t (0 : Fin 4) ∧ win0_6.index t (1 : Fin 3) = 0 ∧ win0_6.index t (2 : Fin 3) = win0_7.index t (3 : Fin 4))
    ∧ (win0_7.index t (0 : Fin 4) ≤ 7 ∧ win0_7.index t (1 : Fin 4) = 0 ∧ win0_7.index t (2 : Fin 4) = 0 ∧ win0_7.index t (3 : Fin 4) ≤ 1) :=
  (by decide +kernel : ∀ t : Fin grid0.N, _)

/-- Every block of the result is some point's. -/
theorem idx_onto : ∀ (q0 : Fin 8) (q3 : Fin 2), ∃ t : Fin cfg0.N, win0_7.index t = ![q0.val, 0, 0, q3.val] :=
  (by decide +kernel : ∀ (q0 : Fin 8) (q3 : Fin 2), ∃ t : Fin grid0.N, win0_7.index t = ![q0.val, 0, 0, q3.val])

/-- The batch a grid point works on, and the array channel of a channel of its column block. -/
def bOf (t : Fin cfg0.N) : Fin 8 := ⟨win0_7.index t (0 : Fin 4), by have := (idx_facts t).2.2.2.2.2.2.2.1; omega⟩
def chan (t : Fin cfg0.N) (f : Fin 256) : Fin 512 :=
  ⟨win0_7.index t (3 : Fin 4) * 256 + f.val, by have := (idx_facts t).2.2.2.2.2.2.2.2.2.2; have := f.isLt; omega⟩

/-! ## Each staged block, read where its window puts it -/

theorem read0 (c : Dev nD) (t : Fin cfg0.N) (h w : Fin 64) (k : Fin 512) :
    Gen.iblk m c 0 t (ix4 (0 : Fin 1) h w k) = (m ((c : Thread nD τ).loc main_arg0)) (ix4 (bOf t) h w k) := by
  obtain ⟨⟨e0, e1, e2, e3⟩, -⟩ := idx_facts t
  show Gen.V m c main_arg0 (((cfg0.win 0).blk t).view.emb (ix4 (0 : Fin 1) h w k)) = _
  rw [Gen.V_main_arg0]
  refine congrArg _ ?_
  funext a; apply Fin.ext
  match a with
    | ⟨0, _⟩ => show win0_0.index t (0 : Fin 4) * 1 + 1 * 0 = win0_7.index t (0 : Fin 4); omega
    | ⟨1, _⟩ => show win0_0.index t (1 : Fin 4) * 64 + 1 * h.val = h.val; omega
    | ⟨2, _⟩ => show win0_0.index t (2 : Fin 4) * 64 + 1 * w.val = w.val; omega
    | ⟨3, _⟩ => show win0_0.index t (3 : Fin 4) * 512 + 1 * k.val = k.val; omega

theorem read2 (c : Dev nD) (t : Fin cfg0.N) (k : Fin 512) (f : Fin 256) :
    Gen.iblk m c 2 t (ix2 k f) = (m ((c : Thread nD τ).loc main_arg3)) (ix2 k (chan t f)) := by
  obtain ⟨-, -, ⟨e0, e1⟩, -⟩ := idx_facts t
  show Gen.V m c main_arg3 (((cfg0.win 2).blk t).view.emb (ix2 k f)) = _
  rw [Gen.V_main_arg3]
  refine congrArg _ ?_
  funext a; apply Fin.ext
  match a with
    | ⟨0, _⟩ => show win0_2.index t (0 : Fin 2) * 512 + 1 * k.val = k.val; omega
    | ⟨1, _⟩ => show win0_2.index t (1 : Fin 2) * 256 + 1 * f.val = win0_7.index t (3 : Fin 4) * 256 + f.val; omega

variable {m}

theorem read1 {c : Dev nD} (hr : HostReads m c) (t : Fin cfg0.N) (h w : Fin 64) :
    Gen.iblk m c 1 t (ix3 (0 : Fin 1) h w) = (m ((c : Thread nD τ).loc main_arg2)) (ix4 (bOf t) h w (0 : Fin 1)) := by
  obtain ⟨-, ⟨e0, e1, e2⟩, -⟩ := idx_facts t
  show Gen.V m c main_v0 (((cfg0.win 1).blk t).view.emb (ix3 (0 : Fin 1) h w)) = _
  have he : ((cfg0.win 1).blk t).view.emb (ix3 (0 : Fin 1) h w) = ix3 (bOf t) h w := by
    funext a; apply Fin.ext
    match a with
    | ⟨0, _⟩ => show win0_1.index t (0 : Fin 3) * 1 + 1 * 0 = win0_7.index t (0 : Fin 4); omega
    | ⟨1, _⟩ => show win0_1.index t (1 : Fin 3) * 64 + 1 * h.val = h.val; omega
    | ⟨2, _⟩ => show win0_1.index t (2 : Fin 3) * 64 + 1 * w.val = w.val; omega
  rw [he, hr.noise]

theorem read3 {c : Dev nD} (hr : HostReads m c) (t : Fin cfg0.N) (f : Fin 256) :
    Gen.iblk m c 3 t (ix2 (0 : Fin 1) f) = (m ((c : Thread nD τ).loc main_arg4)) (ix4 (0 : Fin 1) (0 : Fin 1) (0 : Fin 1) (chan t f)) := by
  obtain ⟨-, -, -, ⟨e0, e1⟩, -⟩ := idx_facts t
  show Gen.V m c main_v1 (((cfg0.win 3).blk t).view.emb (ix2 (0 : Fin 1) f)) = _
  have he : ((cfg0.win 3).blk t).view.emb (ix2 (0 : Fin 1) f) = ix2 (0 : Fin 1) (chan t f) := by
    funext a; apply Fin.ext
    match a with
    | ⟨0, _⟩ => show win0_3.index t (0 : Fin 2) * 1 + 1 * 0 = 0; omega
    | ⟨1, _⟩ => show win0_3.index t (1 : Fin 2) * 256 + 1 * f.val = win0_7.index t (3 : Fin 4) * 256 + f.val; omega
  rw [he, hr.nw]

theorem read4 {c : Dev nD} (hr : HostReads m c) (t : Fin cfg0.N) (f : Fin 256) :
    Gen.iblk m c 4 t (ix2 (0 : Fin 1) f) = (m ((c : Thread nD τ).loc main_arg5)) (ix4 (0 : Fin 1) (0 : Fin 1) (0 : Fin 1) (chan t f)) := by
  obtain ⟨-, -, -, -, ⟨e0, e1⟩, -⟩ := idx_facts t
  show Gen.V m c main_v2 (((cfg0.win 4).blk t).view.emb (ix2 (0 : Fin 1) f)) = _
  have he : ((cfg0.win 4).blk t).view.emb (ix2 (0 : Fin 1) f) = ix2 (0 : Fin 1) (chan t f) := by
    funext a; apply Fin.ext
    match a with
    | ⟨0, _⟩ => show win0_4.index t (0 : Fin 2) * 1 + 1 * 0 = 0; omega
    | ⟨1, _⟩ => show win0_4.index t (1 : Fin 2) * 256 + 1 * f.val = win0_7.index t (3 : Fin 4) * 256 + f.val; omega
  rw [he, hr.bias]

theorem read5 {c : Dev nD} (hr : HostReads m c) (t : Fin cfg0.N) (f : Fin 256) :
    Gen.iblk m c 5 t (ix3 (0 : Fin 1) (0 : Fin 1) f)
      = Cert.Spec.gb (m ((c : Thread nD τ).loc main_arg1)) (m ((c : Thread nD τ).loc main_arg6)) (m ((c : Thread nD τ).loc main_arg7)) (bOf t) (Cert.Spec.lo (chan t f)) := by
  obtain ⟨-, -, -, -, -, ⟨e0, e1, e2⟩, -⟩ := idx_facts t
  show Gen.V m c main_v8 (((cfg0.win 5).blk t).view.emb (ix3 (0 : Fin 1) (0 : Fin 1) f)) = _
  have he : ((cfg0.win 5).blk t).view.emb (ix3 (0 : Fin 1) (0 : Fin 1) f) = ix3 (bOf t) (0 : Fin 1) (chan t f) := by
    funext a; apply Fin.ext
    match a with
    | ⟨0, _⟩ => show win0_5.index t (0 : Fin 3) * 1 + 1 * 0 = win0_7.index t (0 : Fin 4); omega
    | ⟨1, _⟩ => show win0_5.index t (1 : Fin 3) * 1 + 1 * 0 = 0; omega
    | ⟨2, _⟩ => show win0_5.index t (2 : Fin 3) * 256 + 1 * f.val = win0_7.index t (3 : Fin 4) * 256 + f.val; omega
  rw [he, hr.gamma]

theorem read6 {c : Dev nD} (hr : HostReads m c) (t : Fin cfg0.N) (f : Fin 256) :
    Gen.iblk m c 6 t (ix3 (0 : Fin 1) (0 : Fin 1) f)
      = Cert.Spec.gb (m ((c : Thread nD τ).loc main_arg1)) (m ((c : Thread nD τ).loc main_arg6)) (m ((c : Thread nD τ).loc main_arg7)) (bOf t) (Cert.Spec.hi (chan t f)) := by
  obtain ⟨-, -, -, -, -, -, ⟨e0, e1, e2⟩, -⟩ := idx_facts t
  show Gen.V m c main_v10 (((cfg0.win 6).blk t).view.emb (ix3 (0 : Fin 1) (0 : Fin 1) f)) = _
  have he : ((cfg0.win 6).blk t).view.emb (ix3 (0 : Fin 1) (0 : Fin 1) f) = ix3 (bOf t) (0 : Fin 1) (chan t f) := by
    funext a; apply Fin.ext
    match a with
    | ⟨0, _⟩ => show win0_6.index t (0 : Fin 3) * 1 + 1 * 0 = win0_7.index t (0 : Fin 4); omega
    | ⟨1, _⟩ => show win0_6.index t (1 : Fin 3) * 1 + 1 * 0 = 0; omega
    | ⟨2, _⟩ => show win0_6.index t (2 : Fin 3) * 256 + 1 * f.val = win0_7.index t (3 : Fin 4) * 256 + f.val; omega
  rw [he, hr.beta]

/-! ## What a point writes back, the cover, and the array after the run -/

/-- WHAT POINT t WRITES BACK is block t of the one function G of the argument arrays. -/
theorem flushed_eq {c : Dev nD} (hr : HostReads m c) (t : Fin cfg0.N) :
    (Gen.dats m 0 c).flushed 7 t = ((cfg0.win 7).blk t).view.read (Elt Ideal) (G m c) := by
  rw [Value.flushed7]
  unfold Gen.out0_7
  simp only [View.ld_unit_zero (S := S1x64x64x512) hz4, View.ld_unit_zero (S := S512x256) hz2,
    View.ld_unit_zero (S := S1x64x64) hz3, View.ld_unit_zero (S := S1x256) hz2, View.ld_unit_zero (S := S1x1x256) hz3]
  funext j
  obtain ⟨u, h, w, f, rfl⟩ : ∃ (u : Fin 1) (h w : Fin 64) (f : Fin 256), j = ix4 u h w f := ⟨j 0, j 1, j 2, j 3, eq_ix4 j⟩
  obtain rfl : u = 0 := Subsingleton.elim _ _
  show View.canon (Val := Elt Ideal) (s := S1x64x64x256) (e := .f32) [⟨Gen.r0_5, _⟩] (ix4 (0 : Fin 1) h w f)
    = G m c (((cfg0.win 7).blk t).view.emb (ix4 (0 : Fin 1) h w f))
  rw [Value.canon7_eq]
  have he : ((cfg0.win 7).blk t).view.emb (ix4 (0 : Fin 1) h w f) = ix4 (bOf t) h w (chan t f) := by
    funext a; apply Fin.ext
    match a with
    | ⟨0, _⟩ => show win0_7.index t (0 : Fin 4) * 1 + 1 * 0 = win0_7.index t (0 : Fin 4); omega
    | ⟨1, _⟩ => show win0_7.index t (1 : Fin 4) * 64 + 1 * h.val = h.val; have := (idx_facts t).2.2.2.2.2.2.2.2.1; omega
    | ⟨2, _⟩ => show win0_7.index t (2 : Fin 4) * 64 + 1 * w.val = w.val; have := (idx_facts t).2.2.2.2.2.2.2.2.2.1; omega
    | ⟨3, _⟩ => show win0_7.index t (3 : Fin 4) * 256 + 1 * f.val = win0_7.index t (3 : Fin 4) * 256 + f.val; omega
  rw [he]
  exact tile_eq (Gen.iblk m c 0 t) (Gen.iblk m c 2 t) (Gen.iblk m c 1 t) (Gen.iblk m c 3 t) (Gen.iblk m c 4 t)
    (Gen.iblk m c 5 t) (Gen.iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf t) (chan t f) f
    (fun h w k => read0 m c t h w k) (fun k => read2 m c t k f) (fun h w => read1 hr t h w) (read3 hr t f) (read4 hr t f)
    (read5 hr t f) (read6 hr t f) h w

/-- An index of the array is in point t's block iff each coordinate is in the block's range on its axis. -/
theorem mem_blk (t : Fin cfg0.N) (i : S8x64x64x512.Idx) :
    i ∈ ((cfg0.win 7).blk t).view.set ↔ ∀ a : Fin 4, win0_7.index t a * S1x64x64x256.size a ≤ (i a).val
      ∧ (i a).val < win0_7.index t a * S1x64x64x256.size a + S1x64x64x256.size a := by
  show i ∈ ((View.whole main_v11).slice (win0_7.rect t)).set ↔ _
  rw [View.set_slice_whole, Rect.mem_set_unit]
  exact Iff.rfl

/-- The sixteen boxes cover the array: index (b, h, w, F) lies in the box of the point with block (b, 0, 0, F / 256). -/
theorem cover (i : S8x64x64x512.Idx) : ∃ t : Fin cfg0.N, (cfg0.win 7).flush t = true ∧ i ∈ ((cfg0.win 7).blk t).view.set := by
  have hi0 : (i 0).val < 8 := (i 0).isLt
  have hi1 : (i 1).val < 64 := (i 1).isLt
  have hi2 : (i 2).val < 64 := (i 2).isLt
  have hi3 : (i 3).val < 512 := (i 3).isLt
  obtain ⟨t, ht⟩ := idx_onto ⟨(i 0).val, hi0⟩ ⟨(i 3).val / 256, by omega⟩
  have q0 : win0_7.index t (0 : Fin 4) = (i 0).val := congrFun ht 0
  have q1 : win0_7.index t (1 : Fin 4) = 0 := congrFun ht 1
  have q2 : win0_7.index t (2 : Fin 4) = 0 := congrFun ht 2
  have q3 : win0_7.index t (3 : Fin 4) = (i 3).val / 256 := congrFun ht 3
  refine ⟨t, Gen.flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 64 ≤ (i 1).val ∧ (i 1).val < win0_7.index t (1 : Fin 4) * 64 + 64; omega
  | ⟨2, _⟩ => show win0_7.index t (2 : Fin 4) * 64 ≤ (i 2).val ∧ (i 2).val < win0_7.index t (2 : Fin 4) * 64 + 64; omega
  | ⟨3, _⟩ => show win0_7.index t (3 : Fin 4) * 256 ≤ (i 3).val ∧ (i 3).val < win0_7.index t (3 : Fin 4) * 256 + 256; omega

/-- THE ARRAY after the run is G of the argument arrays. -/
theorem final {c : Dev nD} (hr : HostReads m c) : (Gen.dats m 0 c).arrAt 7 cfg0.N = G m c :=
  (Gen.dats m 0 c).arrAt_eq_of_cover 7 (G m c) (fun t _ => flushed_eq hr t) cover

/-- The result at (b, h, w, f). -/
theorem G_apply (c : Dev nD) (b : Fin 8) (h w : Fin 64) (f : Fin 512) :
    G m c (ix4 b h w f) = Cert.Spec.kerC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b h w f := rfl

end Cert.KernelIdeal.KerValue

end
-- ==== Proof.RefStages.lean ====
/-
  The reference program's result as a composition of named stages, at the ideal instance.

  The program first forms the pre-activation  x·W + nw·noise + bias  and applies the leaky rectifier to it (`act`);
  it then normalises every (b,f) plane of 64×64 entries: the plane's mean (`planeMean`: the sum over the two middle
  axes divided by 4096, kept as an [8,1,1,512] array), the centred array (`cen`), the reciprocal deviation
  (`rstd`: rsqrt of the mean of the centred squares plus ε); and it forms the style rows (`style`: the latent row
  times the dense weights plus the dense bias, an [8,1024] array) whose first half is γ and second half β
  (`gammaOf`, `betaOf`: a reshape to [8,2,1,1,512], a slice, a reshape to [8,1,1,512]).  The result is
      cen · rstd · (1 + γ) + β        (`combine`).
  Every stage is a function of VARIABLES for its operand arrays, so that each can be read at an index by itself.
-/
import proofs.«126082_j29540785062600_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The pre-activation: the channel contraction plus the scaled noise plus the bias. -/
def pre (a0 : FVec Ideal S8x64x64x512 .f32) (a2 : FVec Ideal S8x64x64x1 .f32) (a3 : FVec Ideal S512x512 .f32)
    (a4 a5 : FVec Ideal S1x1x1x512 .f32) : FVec Ideal S8x64x64x512 .f32 :=
  addf
    (addf (Host.dotGeneral dot_S8x64x64x512_S512x512_S8x64x64x512_3_0_012_1_n_n none a0 a3)
      (mulf (broadcastInDim S8x64x64x512 ![0, 1, 2, 3] bcast_S1x1x1x512_S8x64x64x512_0_1_2_3 a4)
        (broadcastInDim S8x64x64x512 ![0, 1, 2, 3] bcast_S8x64x64x1_S8x64x64x512_0_1_2_3 a2)))
    (broadcastInDim S8x64x64x512 ![0, 1, 2, 3] bcast_S1x1x1x512_S8x64x64x512_0_1_2_3 a5)

/-- The leaky rectifier with slope `s` (a scalar array): the element where it is at least zero, else `s` times it. -/
def lrelu (v : FVec Ideal S8x64x64x512 .f32) (s : FVec Ideal S_ .f32) : FVec Ideal S8x64x64x512 .f32 :=
  select
    (cmpf .oge v (broadcastInDim S8x64x64x512 ![] bcast_S_S8x64x64x512 (constant (F := Ideal) S_ .f32 0x00000000#32)))
    v
    (mulf (broadcastInDim S8x64x64x512 ![] bcast_S_S8x64x64x512 (id s)) v)

/-- The activation both the mean and the result are computed from. -/
def act (a0 : FVec Ideal S8x64x64x512 .f32) (a2 : FVec Ideal S8x64x64x1 .f32) (a3 : FVec Ideal S512x512 .f32)
    (a4 a5 : FVec Ideal S1x1x1x512 .f32) : FVec Ideal S8x64x64x512 .f32 :=
  lrelu (pre a0 a2 a3 a4 a5) (constant (F := Ideal) S_ .f32 0x3E4CCCCD#32)

/-- The mean of every (b,f) plane: the sum over the two middle axes from zero, divided by 4096. -/
def planeMean (y : FVec Ideal S8x64x64x512 .f32) : FVec Ideal S8x1x1x512 .f32 :=
  Host.divf
    (broadcastInDim S8x1x1x512 ![0, 3] bcast_S8x512_S8x1x1x512_0_3
      (Host.reduceAdd y (constant (F := Ideal) S_ .f32 0x00000000#32) reducesTo_S8x64x64x512_S8x512_d1_2 h_S_))
    (broadcastInDim S8x1x1x512 ![] bcast_S_S8x1x1x512 (constant (F := Ideal) S_ .f32 0x45800000#32))

/-- The array minus its planes' means. -/
def cen (y : FVec Ideal S8x64x64x512 .f32) : FVec Ideal S8x64x64x512 .f32 :=
  subf y (broadcastInDim S8x64x64x512 ![0, 1, 2, 3] bcast_S8x1x1x512_S8x64x64x512_0_1_2_3 (planeMean y))

/-- The reciprocal deviation of every plane: rsqrt of the mean of the centred squares plus ε. -/
def rstd (y : FVec Ideal S8x64x64x512 .f32) : FVec Ideal S8x1x1x512 .f32 :=
  Host.rsqrt
    (addf (planeMean (mulf (cen y) (cen y)))
      (broadcastInDim S8x1x1x512 ![] bcast_S_S8x1x1x512 (constant (F := Ideal) S_ .f32 0x322BCC77#32)))

/-- The style rows: the latent rows times the dense weights, plus the dense bias on every row. -/
def style (a1 : FVec Ideal S8x512 .f32) (a6 : FVec Ideal S512x1024 .f32) (a7 : FVec Ideal S1024 .f32) :
    FVec Ideal S8x1024 .f32 :=
  addf (Host.dotGeneral dot_S8x512_S512x1024_S8x1024_1_0_0_1_n_n none a1 a6)
    (broadcastInDim S8x1024 ![0, 1] bcast_S1x1024_S8x1024_0_1 (broadcastInDim S1x1024 ![1] bcast_S1024_S1x1024_1 a7))

/-- The first half of every style row, as an [8,1,1,512] array. -/
def gammaOf (g : FVec Ideal S8x1024 .f32) : FVec Ideal S8x1x1x512 .f32 :=
  shapeCast S8x1x1x512
    (extractStridedSlice S8x1x1x1x512 ![0, 0, 0, 0, 0] (shapeCast S8x2x1x1x512 g shapeCasts_S8x1024_S8x2x1x1x512)
      slices_S8x2x1x1x512_S8x1x1x1x512_0_0_0_0_0)
    shapeCasts_S8x1x1x1x512_S8x1x1x512

/-- The second half of every style row, as an [8,1,1,512] array. -/
def betaOf (g : FVec Ideal S8x1024 .f32) : FVec Ideal S8x1x1x512 .f32 :=
  shapeCast S8x1x1x512
    (extractStridedSlice S8x1x1x1x512 ![0, 1, 0, 0, 0] (shapeCast S8x2x1x1x512 g shapeCasts_S8x1024_S8x2x1x1x512)
      slices_S8x2x1x1x512_S8x1x1x1x512_0_1_0_0_0)
    shapeCasts_S8x1x1x1x512_S8x1x1x512

/-- The normalised activation, scaled by one plus γ and shifted by β. -/
def combine (y : FVec Ideal S8x64x64x512 .f32) (g : FVec Ideal S8x1024 .f32) : FVec Ideal S8x64x64x512 .f32 :=
  addf
    (mulf
      (mulf (cen y) (broadcastInDim S8x64x64x512 ![0, 1, 2, 3] bcast_S8x1x1x512_S8x64x64x512_0_1_2_3 (rstd y)))
      (broadcastInDim S8x64x64x512 ![0, 1, 2, 3] bcast_S8x1x1x512_S8x64x64x512_0_1_2_3
        (addf (broadcastInDim S8x1x1x512 ![] bcast_S_S8x1x1x512 (constant (F := Ideal) S_ .f32 0x3F800000#32)) (gammaOf g))))
    (broadcastInDim S8x64x64x512 ![0, 1, 2, 3] bcast_S8x1x1x512_S8x64x64x512_0_1_2_3 (betaOf g))

/-- The program's result array as a function of its eight argument arrays. -/
def out (a0 : FVec Ideal S8x64x64x512 .f32) (a1 : FVec Ideal S8x512 .f32) (a2 : FVec Ideal S8x64x64x1 .f32)
    (a3 : FVec Ideal S512x512 .f32) (a4 a5 : FVec Ideal S1x1x1x512 .f32) (a6 : FVec Ideal S512x1024 .f32)
    (a7 : FVec Ideal S1024 .f32) : FVec Ideal S8x64x64x512 .f32 :=
  combine (act a0 a2 a3 a4 a5) (style a1 a6 a7)

end Cert.ReferenceIdeal.RefValue

end
-- ==== Proof.RefRun.lean ====
/-
  The reference program's run: @main as ONE straight line of host operations and what it leaves in memory.

  @main calls the outlined leaky rectifier, which in turn calls the outlined select; a call executes the callee's body
  on the caller's buffers, so the program is the line of @main's own 47 operations with the rectifier's seven (the zero,
  its broadcast, the comparison, the slope converted to its own type, its broadcast, the product, the select) listed at
  the call site over that call's buffers.  The run of a straight line ends with every buffer at the fold of the
  operations' results over the launch contents: the result buffer at the composed stages `out` of the eight argument
  arrays, each argument buffer — which no operation writes — as it was.
-/
import proofs.«126082_j29540785062600_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call unfolded: 54 operations. -/
abbrev ops : List (HloOp τ sig (Elt F)) :=
  [ binary main_arg0 main_arg3 main_v0 ((fun l r => Host.dotGeneral dot_S8x64x64x512_S512x512_S8x64x64x512_3_0_012_1_n_n none l r) : (⟨S8x64x64x512, .f32⟩ : BufTy).Contents (Elt F) → (⟨S512x512, .f32⟩ : BufTy).Contents (Elt F) → (⟨S8x64x64x512, .f32⟩ : BufTy).Contents (Elt F)),
    unary main_arg4 main_v1 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    unary main_arg2 main_v2 (broadcastInDim S8x64x64x512 ![0, 1, 2, 3] bcast_S8x64x64x1_S8x64x64x512_0_1_2_3 : (⟨S8x64x64x1, .f32⟩ : BufTy).Contents (Elt F) → (⟨S8x64x64x512, .f32⟩ : BufTy).Contents (Elt F)),
    binary main_v1 main_v2 main_v3 (mulf : (⟨S8x64x64x512, .f32⟩ : BufTy).Contents (Elt F) → (⟨S8x64x64x512, .f32⟩ : BufTy).Contents (Elt F) → (⟨S8x64x64x512, .f32⟩ : BufTy).Contents (Elt F)),
    binary main_v0 main_v3 main_v4 (addf : (⟨S8x64x64x512, .f32⟩ : BufTy).Contents (Elt F) → (⟨S8x64x64x512, .f32⟩ : BufTy).Contents (Elt F) → (⟨S8x64x64x512, .f32⟩ : BufTy).Contents (Elt F)),
    unary main_arg5 main_v5 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    binary main_v4 main_v5 main_v6 (addf : (⟨S8x64x64x512, .f32⟩ : BufTy).Contents (Elt F) → (⟨S8x64x64x512, .f32⟩ : BufTy).Contents (Elt F) → (⟨S8x64x64x512, .f32⟩ : BufTy).Contents (Elt F)),
    nullary main_cst (constant S_ .f32 0x3E4CCCCD#32),
    TRef.nullary main_call0.cst (constant S_ .f32 0x00000000#32),
    TRef.unary main_call0.cst main_call0.v0 (broadcastInDim S8x64x64x512 ![] bcast_S_S8x64x64x512),
    TRef.binary (.of main_v6) main_call0.v0 main_call0.v1 (cmpf .oge),
    TRef.unary (.of main_cst) main_call0.v2 id,
    TRef.unary main_call0.v2 main_call0.v3 (broadcastInDim S8x64x64x512 ![] bcast_S_S8x64x64x512),
    TRef.binary main_call0.v3 (.of main_v6) main_call0.v4 mulf,
    TRef.ternary main_call0.v1 (.of main_v6) main_call0.v4 main_call0.call0.v0 select,
    nullary main_cst_0 (constant S_ .f32 0x00000000#32),
    binary main_v7 main_cst_0 main_v8 ((fun x v => Host.reduceAdd x v reducesTo_S8x64x64x512_S8x512_d1_2 h_S_) : (⟨S8x64x64x512, .f32⟩ : BufTy).Contents (Elt F) → (⟨S_, .f32⟩ : BufTy).Contents (Elt F) → (⟨S8x512, .f32⟩ : BufTy).Contents (Elt F)),
    unary main_v8 main_v9 (broadcastInDim S8x1x1x512 ![0, 3] bcast_S8x512_S8x1x1x512_0_3 : (⟨S8x512, .f32⟩ : BufTy).Contents (Elt F) → (⟨S8x1x1x512, .f32⟩ : BufTy).Contents (Elt F)),
    nullary main_cst_1 (constant S_ .f32 0x45800000#32),
    unary main_cst_1 main_v10 (broadcastInDim S8x1x1x512 ![] bcast_S_S8x1x1x512 : (⟨S_, .f32⟩ : BufTy).Contents (Elt F) → (⟨S8x1x1x512, .f32⟩ : BufTy).Contents (Elt F)),
    binary main_v9 main_v10 main_v11 (Host.divf : (⟨S8x1x1x512, .f32⟩ : BufTy).Contents (Elt F) → (⟨S8x1x1x512, .f32⟩ : BufTy).Contents (Elt F) → (⟨S8x1x1x512, .f32⟩ : BufTy).Contents (Elt F)),
    unary main_v11 main_v12 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v7 main_v12 main_v13 (subf : (⟨S8x64x64x512, .f32⟩ : BufTy).Contents (Elt F) → (⟨S8x64x64x512, .f32⟩ : BufTy).Contents (Elt F) → (⟨S8x64x64x512, .f32⟩ : BufTy).Contents (Elt F)),
    binary main_v13 main_v13 main_v14 (mulf : (⟨S8x64x64x512, .f32⟩ : BufTy).Contents (Elt F) → (⟨S8x64x64x512, .f32⟩ : BufTy).Contents (Elt F) → (⟨S8x64x64x512, .f32⟩ : BufTy).Contents (Elt F)),
    nullary main_cst_2 (constant S_ .f32 0x00000000#32),
    binary main_v14 main_cst_2 main_v15 ((fun x v => Host.reduceAdd x v reducesTo_S8x64x64x512_S8x512_d1_2 h_S_) : (⟨S8x64x64x512, .f32⟩ : BufTy).Contents (Elt F) → (⟨S_, .f32⟩ : BufTy).Contents (Elt F) → (⟨S8x512, .f32⟩ : BufTy).Contents (Elt F)),
    unary main_v15 main_v16 (broadcastInDim S8x1x1x512 ![0, 3] bcast_S8x512_S8x1x1x512_0_3 : (⟨S8x512, .f32⟩ : BufTy).Contents (Elt F) → (⟨S8x1x1x512, .f32⟩ : BufTy).Contents (Elt F)),
    nullary main_cst_3 (constant S_ .f32 0x45800000#32),
    unary main_cst_3 main_v17 (broadcastInDim S8x1x1x512 ![] bcast_S_S8x1x1x512 : (⟨S_, .f32⟩ : BufTy).Contents (Elt F) → (⟨S8x1x1x512, .f32⟩ : BufTy).Contents (Elt F)),
    binary main_v16 main_v17 main_v18 (Host.divf : (⟨S8x1x1x512, .f32⟩ : BufTy).Contents (Elt F) → (⟨S8x1x1x512, .f32⟩ : BufTy).Contents (Elt F) → (⟨S8x1x1x512, .f32⟩ : BufTy).Contents (Elt F)),
    unary main_v11 main_v19 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v7 main_v19 main_v20 (subf : (⟨S8x64x64x512, .f32⟩ : BufTy).Contents (Elt F) → (⟨S8x64x64x512, .f32⟩ : BufTy).Contents (Elt F) → (⟨S8x64x64x512, .f32⟩ : BufTy).Contents (Elt F)),
    nullary main_cst_4 (constant S_ .f32 0x322BCC77#32),
    unary main_cst_4 main_v21 (broadcastInDim S8x1x1x512 ![] bcast_S_S8x1x1x512 : (⟨S_, .f32⟩ : BufTy).Contents (Elt F) → (⟨S8x1x1x512, .f32⟩ : BufTy).Contents (Elt F)),
    binary main_v18 main_v21 main_v22 (addf : (⟨S8x1x1x512, .f32⟩ : BufTy).Contents (Elt F) → (⟨S8x1x1x512, .f32⟩ : BufTy).Contents (Elt F) → (⟨S8x1x1x512, .f32⟩ : BufTy).Contents (Elt F)),
    unary main_v22 main_v23 (Host.rsqrt : (⟨S8x1x1x512, .f32⟩ : BufTy).Contents (Elt F) → (⟨S8x1x1x512, .f32⟩ : BufTy).Contents (Elt F)),
    unary main_v23 main_v24 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v20 main_v24 main_v25 (mulf : (⟨S8x64x64x512, .f32⟩ : BufTy).Contents (Elt F) → (⟨S8x64x64x512, .f32⟩ : BufTy).Contents (Elt F) → (⟨S8x64x64x512, .f32⟩ : BufTy).Contents (Elt F)),
    binary main_arg1 main_arg6 main_v26 ((fun l r => Host.dotGeneral dot_S8x512_S512x1024_S8x1024_1_0_0_1_n_n none l r) : (⟨S8x512, .f32⟩ : BufTy).Contents (Elt F) → (⟨S512x1024, .f32⟩ : BufTy).Contents (Elt F) → (⟨S8x1024, .f32⟩ : BufTy).Contents (Elt F)),
    unary main_arg7 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S8x1024 ![0, 1] bcast_S1x1024_S8x1024_0_1 : (⟨S1x1024, .f32⟩ : BufTy).Contents (Elt F) → (⟨S8x1024, .f32⟩ : BufTy).Contents (Elt F)),
    binary main_v26 main_v28 main_v29 (addf : (⟨S8x1024, .f32⟩ : BufTy).Contents (Elt F) → (⟨S8x1024, .f32⟩ : BufTy).Contents (Elt F) → (⟨S8x1024, .f32⟩ : BufTy).Contents (Elt F)),
    reshape main_v29 main_v30 rfl shapeCasts_S8x1024_S8x2x1x1x512,
    unary main_v30 main_v31 ((extractStridedSlice S8x1x1x1x512 ![0, 0, 0, 0, 0] · slices_S8x2x1x1x512_S8x1x1x1x512_0_0_0_0_0) : (⟨S8x2x1x1x512, .f32⟩ : BufTy).Contents (Elt F) → (⟨S8x1x1x1x512, .f32⟩ : BufTy).Contents (Elt F)),
    reshape main_v31 main_v32 rfl shapeCasts_S8x1x1x1x512_S8x1x1x512,
    unary main_v30 main_v33 ((extractStridedSlice S8x1x1x1x512 ![0, 1, 0, 0, 0] · slices_S8x2x1x1x512_S8x1x1x1x512_0_1_0_0_0) : (⟨S8x2x1x1x512, .f32⟩ : BufTy).Contents (Elt F) → (⟨S8x1x1x1x512, .f32⟩ : BufTy).Contents (Elt F)),
    reshape main_v33 main_v34 rfl shapeCasts_S8x1x1x1x512_S8x1x1x512,
    nullary main_cst_5 (constant S_ .f32 0x3F800000#32),
    unary main_cst_5 main_v35 (broadcastInDim S8x1x1x512 ![] bcast_S_S8x1x1x512 : (⟨S_, .f32⟩ : BufTy).Contents (Elt F) → (⟨S8x1x1x512, .f32⟩ : BufTy).Contents (Elt F)),
    binary main_v35 main_v32 main_v36 (addf : (⟨S8x1x1x512, .f32⟩ : BufTy).Contents (Elt F) → (⟨S8x1x1x512, .f32⟩ : BufTy).Contents (Elt F) → (⟨S8x1x1x512, .f32⟩ : BufTy).Contents (Elt F)),
    unary main_v36 main_v37 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v25 main_v37 main_v38 (mulf : (⟨S8x64x64x512, .f32⟩ : BufTy).Contents (Elt F) → (⟨S8x64x64x512, .f32⟩ : BufTy).Contents (Elt F) → (⟨S8x64x64x512, .f32⟩ : BufTy).Contents (Elt F)),
    unary main_v34 main_v39 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v38 main_v39 main_v40 (addf : (⟨S8x64x64x512, .f32⟩ : BufTy).Contents (Elt F) → (⟨S8x64x64x512, .f32⟩ : BufTy).Contents (Elt F) → (⟨S8x64x64x512, .f32⟩ : BufTy).Contents (Elt F)) ]

-- fifty-odd binds re-associated: the rewrite under the chain recurses once per statement
set_option maxRecDepth 2048 in
/-- @main is that straight line: the two functions' definitions unfolded at their calls, both sides are one chain of
    steps once the sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., nullary_bufs_sub .., unary_bufs_sub .., binary_bufs_sub .., unary_bufs_sub .., binary_bufs_sub .., unary_bufs_sub .., binary_bufs_sub ..⟩

/-- The fold of the line over the launch contents, on every device. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRunOut.lean ====
/-
  The reference program's run, read back: the result buffer holds the composed stages `out` of the eight argument
  arrays, and every argument buffer is as it was.

  The fold of the line at the result buffer is each operation's function applied to the folds at its operand buffers,
  down to the launch contents of the arguments: exactly the stages' composition, definitionally (the typed references of
  the outlined functions transport contents along an equation of types that is reflexivity at literal references).  No
  operation writes an argument buffer, so the fold there is the launch contents.
-/
import proofs.«126082_j29540785062600_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

-- the sums are never opened: the equation is between the operations' composition and the stages'
attribute [local irreducible] Host.reduceAdd in
set_option maxRecDepth 8192 in
/-- The fold at the result buffer is the stages' composition of the folds' start at the argument buffers. -/
theorem out_eq (V : Valuation τ sig (Elt Ideal)) :
    after (ops (F := Ideal)) V (main_v40 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

/-- On every device, from any memory with zero counters: every weakly fair execution of @main terminates with the result
    buffer at `out` of the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v40).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main (F := Ideal) m ρ)

end Cert.ReferenceIdeal.RefValue

end
-- ==== Proof.RefPlaneSum.lean ====
/-
  The host's float sum over the two middle axes of an [8,64,64,512] array, read at (b,f).

  The sum's definition adds, to the initial value, the operand's entries over the set of indices that drop to (b,f)
  when the two middle coordinates are forgotten.  That set is in bijection with the pairs (h,w) of middle coordinates —
  an index of it is (b,h,w,f) — so the sum is the double sum over h and w.  The bijection is stated on the indices; the
  index type is never enumerated.
-/
import proofs.«126082_j29540785062600_2_alg».proof.ReferenceIdeal
import Idealize.ShloMosaic.PureOps.Ideal.Laws
import Idealize.ShloMosaic.Lib.ValueIdx

open scoped BigOperators

namespace Cert.ReferenceIdeal.RefValue

open Cert.ReferenceIdeal Idealize.ShloMosaic Idealize.ShloMosaic.ValueIdx

/-- Forgetting the two middle coordinates of (b,h,w,f) leaves (b,f). -/
theorem drop_ix4 (h' : S8x64x64x512.ReducesTo [1, 2] S8x512) (b : Fin 8) (h w : Fin 64) (f : Fin 512) :
    h'.drop (ix4 b h w f) = ix2 b f := by
  funext a
  match a with
  | ⟨0, _⟩ => exact Fin.ext (h'.drop_apply_val_of_eq (ix4 b h w f) ⟨0, by decide⟩ ⟨0, by decide⟩)
  | ⟨1, _⟩ => exact Fin.ext (h'.drop_apply_val_of_eq (ix4 b h w f) ⟨1, by decide⟩ ⟨3, by decide⟩)

/-- An index that drops to (b,f) is (b,h,w,f) for its own middle coordinates. -/
theorem eq_ix4_of_drop (h' : S8x64x64x512.ReducesTo [1, 2] S8x512) (b : Fin 8) (f : Fin 512) (i : S8x64x64x512.Idx)
    (hd : h'.drop i = ix2 b f) : ix4 b (i 1 : Fin 64) (i 2 : Fin 64) f = i := by
  have e0 : (i 0 : Fin 8).val = b.val :=
    (h'.drop_apply_val_of_eq i ⟨0, by decide⟩ ⟨0, by decide⟩).symm.trans (congrArg (fun j : S8x512.Idx => (j ⟨0, by decide⟩).val) hd)
  have e3 : (i 3 : Fin 512).val = f.val :=
    (h'.drop_apply_val_of_eq i ⟨1, by decide⟩ ⟨3, by decide⟩).symm.trans (congrArg (fun j : S8x512.Idx => (j ⟨1, by decide⟩).val) hd)
  funext a
  match a with
  | ⟨0, _⟩ => exact Fin.ext e0.symm
  | ⟨1, _⟩ => rfl
  | ⟨2, _⟩ => rfl
  | ⟨3, _⟩ => exact Fin.ext e3.symm

/-- The sum over the two middle axes, read at (b,f): the initial value plus the double sum over h and w. -/
theorem hostReduceAdd_planes (h' : S8x64x64x512.ReducesTo [1, 2] S8x512) (x : S8x64x64x512.Idx → EReal) (init : EReal)
    (b : Fin 8) (f : Fin 512) :
    Ideal.hostReduceAdd h' x init (ix2 b f) = init + ∑ h : Fin 64, ∑ w : Fin 64, x (ix4 b h w f) := by
  unfold Ideal.hostReduceAdd
  refine congrArg (init + ·) ?_
  rw [← Fintype.sum_prod_type' (f := fun (h w : Fin 64) => x (ix4 b h w f))]
  refine Finset.sum_bij' (fun i _ => ((i 1 : Fin 64), (i 2 : Fin 64))) (fun p _ => ix4 b p.1 p.2 f)
    (fun _ _ => Finset.mem_univ _)
    (fun p _ => Finset.mem_filter.mpr ⟨Finset.mem_univ _, drop_ix4 h' b p.1 p.2 f⟩)
    (fun i hi => eq_ix4_of_drop h' b f i (Finset.mem_filter.mp hi).2)
    (fun _ _ => rfl)
    (fun i hi => congrArg x (eq_ix4_of_drop h' b f i (Finset.mem_filter.mp hi).2).symm)

end Cert.ReferenceIdeal.RefValue
-- ==== Proof.RefContract.lean ====
/-
  The program's two contractions read at an index.

  The channel contraction [8,64,64,512] × [512,512] over the last axis of the left operand and the first of the right,
  at (b,h,w,f), is the sum over c of x[b,h,w,c]·W[c,f]; the style contraction [8,512] × [512,1024], at (b,j), is the sum
  over k of d[b,k]·A[k,j].  Each has ONE contracted axis: the contraction index is that axis's coordinate, and the
  operands' indices at a result index and a contraction coordinate are read off the dimension numbers.
-/
import proofs.«126082_j29540785062600_2_alg».proof.ReferenceIdeal
import Idealize.ShloMosaic.PureOps.Ideal.Laws
import Idealize.ShloMosaic.Lib.ValueIdx

open scoped BigOperators

namespace Cert.ReferenceIdeal.RefValue

open Cert.ReferenceIdeal Idealize.ShloMosaic Idealize.ShloMosaic.ValueIdx

variable [Facts₀]

/-- The channel contraction's index is the channel. -/
abbrev chanEquiv : dot_S8x64x64x512_S512x512_S8x64x64x512_3_0_012_1_n_n.contr.Idx ≃ Fin 512 :=
  contrEquiv1 dot_S8x64x64x512_S512x512_S8x64x64x512_3_0_012_1_n_n 512 rfl rfl

/-- At the result index (b,h,w,f) and channel c the left operand is read at (b,h,w,c). -/
theorem chan_lhsIdx (b : Fin 8) (h w : Fin 64) (f c : Fin 512) :
    dot_S8x64x64x512_S512x512_S8x64x64x512_3_0_012_1_n_n.lhsIdx (ix4 b h w f) (chanEquiv.symm c) = ix4 b h w c := by
  funext a
  match a with
  | ⟨0, _⟩ => exact Fin.ext rfl
  | ⟨1, _⟩ => exact Fin.ext rfl
  | ⟨2, _⟩ => exact Fin.ext rfl
  | ⟨3, _⟩ =>
    exact Fin.ext ((dot_S8x64x64x512_S512x512_S8x64x64x512_3_0_012_1_n_n.lhsIdx_val_of_single rfl _ _).trans
      (contrEquiv1_symm_val _ 512 rfl rfl c))

/-- … and the right operand at (c,f). -/
theorem chan_rhsIdx (b : Fin 8) (h w : Fin 64) (f c : Fin 512) :
    dot_S8x64x64x512_S512x512_S8x64x64x512_3_0_012_1_n_n.rhsIdx (ix4 b h w f) (chanEquiv.symm c) = ix2 c f := by
  funext a
  match a with
  | ⟨0, _⟩ =>
    exact Fin.ext ((dot_S8x64x64x512_S512x512_S8x64x64x512_3_0_012_1_n_n.rhsIdx_val_of_single rfl _ _).trans
      (contrEquiv1_symm_val _ 512 rfl rfl c))
  | ⟨1, _⟩ => exact Fin.ext rfl

/-- The channel contraction at (b,h,w,f): the sum over the channels of the products. -/
theorem chanDot_apply (x : FVec Ideal S8x64x64x512 .f32) (W : FVec Ideal S512x512 .f32) (b : Fin 8) (h w : Fin 64) (f : Fin 512) :
    Host.dotGeneral dot_S8x64x64x512_S512x512_S8x64x64x512_3_0_012_1_n_n none x W (ix4 b h w f)
      = ∑ c : Fin 512, x (ix4 b h w c) * W (ix2 c f) := by
  refine (Ideal.dotGeneral_apply _ none .single x W (ix4 b h w f)).trans ?_
  rw [← Equiv.sum_comp chanEquiv.symm]
  exact Finset.sum_congr rfl fun c _ => by rw [chan_lhsIdx, chan_rhsIdx]

/-- The style contraction's index is the latent coordinate. -/
abbrev latEquiv : dot_S8x512_S512x1024_S8x1024_1_0_0_1_n_n.contr.Idx ≃ Fin 512 :=
  contrEquiv1 dot_S8x512_S512x1024_S8x1024_1_0_0_1_n_n 512 rfl rfl

/-- At the result index (b,j) and latent coordinate k the left operand is read at (b,k). -/
theorem lat_lhsIdx (b : Fin 8) (j : Fin 1024) (k : Fin 512) :
    dot_S8x512_S512x1024_S8x1024_1_0_0_1_n_n.lhsIdx (ix2 b j) (latEquiv.symm k) = ix2 b k := by
  funext a
  match a with
  | ⟨0, _⟩ => exact Fin.ext rfl
  | ⟨1, _⟩ =>
    exact Fin.ext ((dot_S8x512_S512x1024_S8x1024_1_0_0_1_n_n.lhsIdx_val_of_single rfl _ _).trans
      (contrEquiv1_symm_val _ 512 rfl rfl k))

/-- … and the right operand at (k,j). -/
theorem lat_rhsIdx (b : Fin 8) (j : Fin 1024) (k : Fin 512) :
    dot_S8x512_S512x1024_S8x1024_1_0_0_1_n_n.rhsIdx (ix2 b j) (latEquiv.symm k) = ix2 k j := by
  funext a
  match a with
  | ⟨0, _⟩ =>
    exact Fin.ext ((dot_S8x512_S512x1024_S8x1024_1_0_0_1_n_n.rhsIdx_val_of_single rfl _ _).trans
      (contrEquiv1_symm_val _ 512 rfl rfl k))
  | ⟨1, _⟩ => exact Fin.ext rfl

/-- The style contraction at (b,j): the sum over the latent coordinates of the products. -/
theorem latDot_apply (d : FVec Ideal S8x512 .f32) (A : FVec Ideal S512x1024 .f32) (b : Fin 8) (j : Fin 1024) :
    Host.dotGeneral dot_S8x512_S512x1024_S8x1024_1_0_0_1_n_n none d A (ix2 b j)
      = ∑ k : Fin 512, d (ix2 b k) * A (ix2 k j) := by
  refine (Ideal.dotGeneral_apply _ none .single d A (ix2 b j)).trans ?_
  rw [← Equiv.sum_comp latEquiv.symm]
  exact Finset.sum_congr rfl fun k _ => by rw [lat_lhsIdx, lat_rhsIdx]

end Cert.ReferenceIdeal.RefValue
-- ==== Proof.RefLayout.lean ====
/-
  The program's layout operations read at an index: the broadcasts that copy a row, a noise plane or a plane statistic
  over the [8,64,64,512] array, the statistic's [8,512] → [8,1,1,512] re-indexing, the dense bias copied onto every style
  row, and the two halves of a style row (a reshape of [8,1024] to [8,2,1,1,512], a slice on the second axis, a reshape to
  [8,1,1,512]: column f of the first half is column f of the row, column f of the second half is column 512 + f).
  Every lemma is over a VARIABLE operand and any proof of the shape relation.
-/
import proofs.«126082_j29540785062600_2_alg».proof.ReferenceIdeal
import Idealize.ShloMosaic.Lib.Pipeline.Value
import Idealize.ShloMosaic.Lib.ValueIdx

namespace Cert.ReferenceIdeal.RefValue

open Cert.ReferenceIdeal Idealize.ShloMosaic Idealize.ShloMosaic.ValueIdx

variable {α : Type}

/-- A [1,1,1,512] row copied over the whole array: at (b,h,w,f) it is the row at f. -/
theorem bcastRow_apply (hb : S1x1x1x512.BroadcastsInDim S8x64x64x512 ![0, 1, 2, 3]) (x : S1x1x1x512.Idx → α)
    (b : Fin 8) (h w : Fin 64) (f : Fin 512) :
    broadcastInDim S8x64x64x512 ![0, 1, 2, 3] hb x (ix4 b h w f) = x (ix4 0 0 0 f) :=
  broadcastInDim_apply _ hb x (ix4 b h w f) (ix4 0 0 0 f) fun a =>
    match a with
    | ⟨0, _⟩ => rfl
    | ⟨1, _⟩ => rfl
    | ⟨2, _⟩ => rfl
    | ⟨3, _⟩ => rfl

/-- An [8,64,64,1] plane copied along the last axis: at (b,h,w,f) it is the plane at (b,h,w). -/
theorem bcastNoise_apply (hb : S8x64x64x1.BroadcastsInDim S8x64x64x512 ![0, 1, 2, 3]) (x : S8x64x64x1.Idx → α)
    (b : Fin 8) (h w : Fin 64) (f : Fin 512) :
    broadcastInDim S8x64x64x512 ![0, 1, 2, 3] hb x (ix4 b h w f) = x (ix4 b h w 0) :=
  broadcastInDim_apply _ hb x (ix4 b h w f) (ix4 b h w 0) fun a =>
    match a with
    | ⟨0, _⟩ => rfl
    | ⟨1, _⟩ => rfl
    | ⟨2, _⟩ => rfl
    | ⟨3, _⟩ => rfl

/-- An [8,1,1,512] plane statistic copied over the planes: at (b,h,w,f) it is the statistic at (b,f). -/
theorem bcastPlane_apply (hb : S8x1x1x512.BroadcastsInDim S8x64x64x512 ![0, 1, 2, 3]) (x : S8x1x1x512.Idx → α)
    (b : Fin 8) (h w : Fin 64) (f : Fin 512) :
    broadcastInDim S8x64x64x512 ![0, 1, 2, 3] hb x (ix4 b h w f) = x (ix4 b 0 0 f) :=
  broadcastInDim_apply _ hb x (ix4 b h w f) (ix4 b 0 0 f) fun a =>
    match a with
    | ⟨0, _⟩ => rfl
    | ⟨1, _⟩ => rfl
    | ⟨2, _⟩ => rfl
    | ⟨3, _⟩ => rfl

/-- An [8,512] array of plane sums as an [8,1,1,512] array: at (b,0,0,f) it is the sum at (b,f). -/
theorem bcastKeep_apply (hb : S8x512.BroadcastsInDim S8x1x1x512 ![0, 3]) (x : S8x512.Idx → α) (b : Fin 8) (f : Fin 512) :
    broadcastInDim S8x1x1x512 ![0, 3] hb x (ix4 b 0 0 f) = x (ix2 b f) :=
  broadcastInDim_apply _ hb x (ix4 b 0 0 f) (ix2 b f) fun a =>
    match a with
    | ⟨0, _⟩ => rfl
    | ⟨1, _⟩ => rfl

/-- The dense bias as a one-row matrix: at (0,j) it is the bias at j. -/
theorem bcastBias1_apply (hb : S1024.BroadcastsInDim S1x1024 ![1]) (x : S1024.Idx → α) (j : Fin 1024) :
    broadcastInDim S1x1024 ![1] hb x (ix2 0 j) = x (ix1 j) :=
  broadcastInDim_apply _ hb x (ix2 0 j) (ix1 j) fun a =>
    match a with
    | ⟨0, _⟩ => rfl

/-- The one-row matrix copied onto the eight rows: at (b,j) it is the row at j. -/
theorem bcastBias8_apply (hb : S1x1024.BroadcastsInDim S8x1024 ![0, 1]) (x : S1x1024.Idx → α) (b : Fin 8) (j : Fin 1024) :
    broadcastInDim S8x1024 ![0, 1] hb x (ix2 b j) = x (ix2 0 j) :=
  broadcastInDim_apply _ hb x (ix2 b j) (ix2 0 j) fun a =>
    match a with
    | ⟨0, _⟩ => rfl
    | ⟨1, _⟩ => rfl

/-- A style row's half `e` (0 or 1), through the reshape to [8,2,1,1,512]: column f of it is column e·512 + f of the row. -/
theorem reshapeHalf_apply (hc : S8x1024.ShapeCasts S8x2x1x1x512) (g : S8x1024.Idx → α) (b : Fin 8) (e : Fin 2) (f : Fin 512) :
    shapeCast S8x2x1x1x512 g hc (ix5 b e 0 0 f) = g (ix2 b ⟨e.val * 512 + f.val, by omega⟩) :=
  shapeCast_apply g hc (ix5 b e 0 0 f) (ix2 b ⟨e.val * 512 + f.val, by omega⟩) (by
    rw [Shape.rowMajor_val_two, Shape.rowMajor_val_five]
    show b.val * 1024 + (e.val * 512 + f.val) = (((b.val * 2 + e.val) * 1 + 0) * 1 + 0) * 512 + f.val
    omega)

/-- The slice that keeps half `e`: at (b,0,0,0,f) it is the reshaped array at (b,e,0,0,f). -/
theorem sliceHalf_apply (off : Fin 5 → Nat) (e : Fin 2) (h0 : off 0 = 0) (h1 : off 1 = e.val) (h2 : off 2 = 0) (h3 : off 3 = 0)
    (h4 : off 4 = 0) (hs : S8x2x1x1x512.Slices off S8x1x1x1x512) (x : S8x2x1x1x512.Idx → α) (b : Fin 8) (f : Fin 512) :
    extractStridedSlice S8x1x1x1x512 off x hs (ix5 b 0 0 0 f) = x (ix5 b e 0 0 f) :=
  extractStridedSlice_apply off x hs (ix5 b 0 0 0 f) (ix5 b e 0 0 f) fun a =>
    match a with
    | ⟨0, _⟩ => by show b.val = off 0 + b.val; omega
    | ⟨1, _⟩ => by show e.val = off 1 + 0; omega
    | ⟨2, _⟩ => by show 0 = off 2 + 0; omega
    | ⟨3, _⟩ => by show 0 = off 3 + 0; omega
    | ⟨4, _⟩ => by show f.val = off 4 + f.val; omega

/-- The unit axis dropped: [8,1,1,1,512] as [8,1,1,512], at (b,0,0,f) the operand at (b,0,0,0,f). -/
theorem dropUnit_apply (hc : S8x1x1x1x512.ShapeCasts S8x1x1x512) (x : S8x1x1x1x512.Idx → α) (b : Fin 8) (f : Fin 512) :
    shapeCast S8x1x1x512 x hc (ix4 b 0 0 f) = x (ix5 b 0 0 0 f) :=
  shapeCast_apply x hc (ix4 b 0 0 f) (ix5 b 0 0 0 f) (by
    rw [Shape.rowMajor_val_five, Shape.rowMajor_val_four]
    show (((b.val * 1 + 0) * 1 + 0) * 1 + 0) * 512 + f.val = ((b.val * 1 + 0) * 1 + 0) * 512 + f.val
    omega)

end Cert.ReferenceIdeal.RefValue
-- ==== Proof.RefRead.lean ====
/-
  The reference's result read at an index: every stage at (b,h,w,f) — or, for a plane statistic, at (b,0,0,f) — and
  their composition against the specification.

  The activation at (b,h,w,f) is the specification's `act`; a plane's mean is its double sum divided by 4096 (the
  program's sum starts from the zero word, which is the number 0); the centred entry is the entry minus that mean; the
  reciprocal deviation is rsqrt of the mean of the centred squares plus ε; the style row at (b,j) is the specification's
  `gb`, its halves at column f are the row at f and at 512 + f.  The composition is the specification's `refOut` on the
  plane h', w' ↦ act(b,h',w',f), which is `refC`.
-/
import proofs.«126082_j29540785062600_2_alg».proof.Proof.RefStages
import proofs.«126082_j29540785062600_2_alg».proof.Proof.RefPlaneSum
import proofs.«126082_j29540785062600_2_alg».proof.Proof.RefContract
import proofs.«126082_j29540785062600_2_alg».proof.Proof.RefLayout
import proofs.«126082_j29540785062600_2_alg».proof.Proof.Spec
import Idealize.ShloMosaic.Lib.IdealHost

open scoped BigOperators

namespace Cert.ReferenceIdeal.RefValue

open Cert.ReferenceIdeal Cert.ReferenceIdeal.Gen Idealize.ShloMosaic Idealize.ShloMosaic.ValueIdx

/-- The pre-activation at (b,h,w,f). -/
theorem pre_apply (a0 : FVec Ideal S8x64x64x512 .f32) (a2 : FVec Ideal S8x64x64x1 .f32) (a3 : FVec Ideal S512x512 .f32)
    (a4 a5 : FVec Ideal S1x1x1x512 .f32) (b : Fin 8) (h w : Fin 64) (f : Fin 512) :
    pre a0 a2 a3 a4 a5 (ix4 b h w f)
      = (∑ c : Fin 512, a0 (ix4 b h w c) * a3 (ix2 c f)) + a4 (ix4 0 0 0 f) * a2 (ix4 b h w 0) + a5 (ix4 0 0 0 f) := by
  unfold pre
  rw [addf_apply, addf_apply, mulf_apply, chanDot_apply, bcastRow_apply, bcastNoise_apply, bcastRow_apply]

/-- The leaky rectifier at an index. -/
theorem lrelu_apply (v : FVec Ideal S8x64x64x512 .f32) (s : FVec Ideal S_ .f32) (i : S8x64x64x512.Idx) :
    lrelu v s i = Scalar.select (Ideal.cmp .oge (v i) (Ideal.ofBits .f32 0x00000000#32)) (v i) (s ix0 * v i) := by
  unfold lrelu
  rw [select_apply, cmpf_apply, mulf_apply, broadcastInDim_scalar_apply, broadcastInDim_scalar_apply, constant_apply]
  rfl

/-- The activation at (b,h,w,f) is the specification's. -/
theorem act_apply (a0 : FVec Ideal S8x64x64x512 .f32) (a2 : FVec Ideal S8x64x64x1 .f32) (a3 : FVec Ideal S512x512 .f32)
    (a4 a5 : FVec Ideal S1x1x1x512 .f32) (b : Fin 8) (h w : Fin 64) (f : Fin 512) :
    act a0 a2 a3 a4 a5 (ix4 b h w f) = Cert.Spec.act a0 a3 a2 a4 a5 b h w f := by
  unfold act Cert.Spec.act Cert.Spec.lrelu
  rw [lrelu_apply, pre_apply, constant_apply]

/-- A plane's mean at (b,0,0,f): the double sum over the plane divided by 4096. -/
theorem planeMean_apply (y : FVec Ideal S8x64x64x512 .f32) (b : Fin 8) (f : Fin 512) :
    planeMean y (ix4 b 0 0 f)
      = Ideal.div (∑ h : Fin 64, ∑ w : Fin 64, y (ix4 b h w f)) (Ideal.ofBits .f32 0x45800000#32) := by
  unfold planeMean
  rw [hostDivf_apply, bcastKeep_apply, hostReduceAdd_apply, hostReduceAdd_planes, broadcastInDim_scalar_apply,
    constant_apply, constant_apply, Ideal.ofBits_zero_f32, zero_add]

/-- The centred entry at (b,h,w,f). -/
theorem cen_apply (y : FVec Ideal S8x64x64x512 .f32) (b : Fin 8) (h w : Fin 64) (f : Fin 512) :
    cen y (ix4 b h w f)
      = y (ix4 b h w f) - Ideal.div (∑ h' : Fin 64, ∑ w' : Fin 64, y (ix4 b h' w' f)) (Ideal.ofBits .f32 0x45800000#32) := by
  unfold cen
  rw [subf_apply, bcastPlane_apply, planeMean_apply]

/-- The reciprocal deviation at (b,0,0,f). -/
theorem rstd_apply (y : FVec Ideal S8x64x64x512 .f32) (b : Fin 8) (f : Fin 512) :
    rstd y (ix4 b 0 0 f)
      = Ideal.rsqrt (Ideal.div (∑ h : Fin 64, ∑ w : Fin 64, cen y (ix4 b h w f) * cen y (ix4 b h w f))
          (Ideal.ofBits .f32 0x45800000#32) + Ideal.ofBits .f32 0x322BCC77#32) := by
  unfold rstd
  show Ideal.rsqrt _ = _
  rw [addf_apply, planeMean_apply, broadcastInDim_scalar_apply, constant_apply]
  rfl

/-- The style row at (b,j) is the specification's. -/
theorem style_apply (a1 : FVec Ideal S8x512 .f32) (a6 : FVec Ideal S512x1024 .f32) (a7 : FVec Ideal S1024 .f32)
    (b : Fin 8) (j : Fin 1024) : style a1 a6 a7 (ix2 b j) = Cert.Spec.gb a1 a6 a7 b j := by
  unfold style Cert.Spec.gb
  rw [addf_apply, latDot_apply, bcastBias8_apply, bcastBias1_apply]

/-- The first half of a style row at column f. -/
theorem gammaOf_apply (g : FVec Ideal S8x1024 .f32) (b : Fin 8) (f : Fin 512) :
    gammaOf g (ix4 b 0 0 f) = g (ix2 b (Cert.Spec.lo f)) := by
  unfold gammaOf
  rw [dropUnit_apply, sliceHalf_apply _ 0 rfl rfl rfl rfl rfl, reshapeHalf_apply]
  exact congrArg g (congrArg (ix2 b) (Fin.ext (by show (0 : Fin 2).val * 512 + f.val = f.val; simp)))

/-- The second half of a style row at column f. -/
theorem betaOf_apply (g : FVec Ideal S8x1024 .f32) (b : Fin 8) (f : Fin 512) :
    betaOf g (ix4 b 0 0 f) = g (ix2 b (Cert.Spec.hi f)) := by
  unfold betaOf
  rw [dropUnit_apply, sliceHalf_apply _ 1 rfl rfl rfl rfl rfl, reshapeHalf_apply]
  exact congrArg g (congrArg (ix2 b) (Fin.ext (by show (1 : Fin 2).val * 512 + f.val = 512 + f.val; simp)))

/-- The composition at (b,h,w,f): the specification's textbook normalisation of the plane of `y` at (b,f). -/
theorem combine_apply (y : FVec Ideal S8x64x64x512 .f32) (g : FVec Ideal S8x1024 .f32) (b : Fin 8) (h w : Fin 64) (f : Fin 512) :
    combine y g (ix4 b h w f)
      = Cert.Spec.refOut (fun h' w' => y (ix4 b h' w' f)) (g (ix2 b (Cert.Spec.lo f))) (g (ix2 b (Cert.Spec.hi f))) h w := by
  unfold combine
  rw [addf_apply, mulf_apply, mulf_apply, bcastPlane_apply, bcastPlane_apply, bcastPlane_apply, addf_apply,
    broadcastInDim_scalar_apply, constant_apply, gammaOf_apply, betaOf_apply, rstd_apply, cen_apply]
  simp only [cen_apply]
  rfl

/-- The result read at an index is the specification's. -/
theorem out_apply (a0 : FVec Ideal S8x64x64x512 .f32) (a1 : FVec Ideal S8x512 .f32) (a2 : FVec Ideal S8x64x64x1 .f32)
    (a3 : FVec Ideal S512x512 .f32) (a4 a5 : FVec Ideal S1x1x1x512 .f32) (a6 : FVec Ideal S512x1024 .f32)
    (a7 : FVec Ideal S1024 .f32) (b : Fin 8) (h w : Fin 64) (f : Fin 512) :
    out a0 a1 a2 a3 a4 a5 a6 a7 (ix4 b h w f) = Cert.Spec.refC a0 a1 a2 a3 a4 a5 a6 a7 b h w f := by
  unfold out Cert.Spec.refC
  rw [combine_apply, style_apply, style_apply]
  simp only [act_apply]

end Cert.ReferenceIdeal.RefValue
-- ==== Proof.lean ====
/-
  The kernel is a fused "1×1 convolution, noise, bias, leaky rectifier, instance normalisation, style affine" layer;
  the reference is the same layer in plain array operations.  On the extended reals both compute, for every batch b and
  channel f, the activation plane  Y[h,w] = lrelu(Σ_c x[b,h,w,c]·W[c,f] + nw[f]·noise[b,h,w] + bias[f])  and the style
  pair  γ = gb[b,f], β = gb[b,512+f]  with  gb = d·A + a.

  The kernel normalises the plane by  mu = ΣΣY·2⁻¹²,  var = max(ΣΣY²·2⁻¹² − mu², 0),  out = Y·s + (β − mu·s),
  s = rsqrt(var + ε)·(1 + γ);  the reference by  mu = ΣΣY / 4096,  var = ΣΣ(Y − mu)² / 4096,
  out = (Y − mu)·rsqrt(var + ε)·(1 + γ) + β.  When every input entry is finite every quantity above is a real number,
  E[(Y − mu)²] = E[Y²] − mu² is non-negative so the clamp is inert, and the two affine forms agree by distributivity
  (module Algebra, over Spec's statement of both sides; finiteness from the precondition in module Finite).

  The kernel side: the result array after the run is, box by box over the 8 × 2 grid, one function of the argument arrays
  (modules KerAct, KerSums, KerBlock, KerHost, KerArray, over the generated frame run and value leg).  The reference
  side: its run and its result read at an index (modules RefRun, RefRunOut, RefRead and the stage lemmas under them).
  The frames of the two kernel programs are the generated ones; the reference's is its run with the result dropped;
  the idealisation rewrote nothing, so its claim is trivial.
-/
import proofs.«126082_j29540785062600_2_alg».proof.Defs
import proofs.«126082_j29540785062600_2_alg».proof.Proof.Gen.Kernel
import proofs.«126082_j29540785062600_2_alg».proof.Proof.Gen.Kernel.Skeleton
import proofs.«126082_j29540785062600_2_alg».proof.Proof.Gen.Kernel.Launch
import proofs.«126082_j29540785062600_2_alg».proof.Proof.Gen.Kernel.Points
import proofs.«126082_j29540785062600_2_alg».proof.Proof.Gen.Kernel.Frame
import proofs.«126082_j29540785062600_2_alg».proof.Proof.Gen.KernelIdeal
import proofs.«126082_j29540785062600_2_alg».proof.Proof.Gen.KernelIdeal.Skeleton
import proofs.«126082_j29540785062600_2_alg».proof.Proof.Gen.KernelIdeal.Launch
import proofs.«126082_j29540785062600_2_alg».proof.Proof.Gen.KernelIdeal.Points
import proofs.«126082_j29540785062600_2_alg».proof.Proof.Gen.KernelIdeal.Frame
import proofs.«126082_j29540785062600_2_alg».proof.Proof.Gen.KernelIdeal.Value
import proofs.«126082_j29540785062600_2_alg».proof.Proof.Gen.ReferenceIdeal
import proofs.«126082_j29540785062600_2_alg».proof.Proof.Gen.Pre_finite_inputs
import proofs.«126082_j29540785062600_2_alg».proof.Proof.Spec
import proofs.«126082_j29540785062600_2_alg».proof.Proof.Algebra
import proofs.«126082_j29540785062600_2_alg».proof.Proof.Finite
import proofs.«126082_j29540785062600_2_alg».proof.Proof.KerHost
import proofs.«126082_j29540785062600_2_alg».proof.Proof.KerArray
import proofs.«126082_j29540785062600_2_alg».proof.Proof.RefRunOut
import proofs.«126082_j29540785062600_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel's frame: the generated one. -/
theorem frame_k : Cert.frame_Kernel := fun m ρ _ => Cert.Kernel.Gen.frame m ρ

/-- The idealized kernel's frame: the generated one. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealisation rewrote no operation. -/
theorem preserves : Cert.preserves_Kernel_KernelIdeal := trivial

/-- The operand arrays the kernel program's host operations write before the call, read at an index. -/
theorem hostReads (m : (ℓ : Loc Cert.KernelIdeal.nD Cert.KernelIdeal.τ Cert.KernelIdeal.sig) → Buf (Elt Ideal) ℓ)
    (c : Dev Cert.KernelIdeal.nD) : Cert.KernelIdeal.KerValue.HostReads m c :=
  ⟨Cert.KernelIdeal.KerValue.V_noise m c, Cert.KernelIdeal.KerValue.V_nw m c, Cert.KernelIdeal.KerValue.V_bias m c,
    Cert.KernelIdeal.KerValue.V_gamma m c, Cert.KernelIdeal.KerValue.V_beta m c⟩

/-- From memories that agree on finite arguments both programs end with the same array: the kernel's is its normalised
    value K of the arguments (the blocks-to-array step), the reference's is its own R (its run read at an index), and
    K = R entry by entry where every argument entry is a real number. -/
theorem algebraic : Cert.algebraic_KernelIdeal_ReferenceIdeal := by
  intro m ρ m' ρ' hpre hagree
  refine ⟨fun c => Cert.KernelIdeal.KerValue.G m c, ?_, ?_⟩
  · exact (θ_run Cert.KernelIdeal.defs _ _).mono
      (fun r h c => ⟨(h c).1.trans (Cert.KernelIdeal.KerValue.final (hostReads m c)), (h c).2⟩)
      (Cert.KernelIdeal.Value.run_blocks m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7⟩ := hagree c
    rw [e0, e1, e2, e3, e4, e5, e6, e7]
    obtain ⟨r0, r1, r2, r3, r4, r5, r6, r7⟩ := Cert.Finite.real_of_pre _ _ _ _ _ _ _ _ (hpre c)
    funext i
    obtain ⟨b, h, w, f, rfl⟩ : ∃ (b : Fin 8) (h w : Fin 64) (f : Fin 512), i = ix4 b h w f := ⟨i 0, i 1, i 2, i 3, eq_ix4 i⟩
    rw [Cert.ReferenceIdeal.RefValue.out_apply]
    exact (Cert.Spec.kerC_eq_refC _ _ _ _ _ _ _ _ r0 r1 r2 r3 r4 r5 r6 r7 b h w f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
